-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S50000 : Shape := ⟨1, ![50000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S64 .f32) (main_arg7 : FVec F S64x10 .f32) (main_arg8 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x10 .f32 := Host.absf main_arg7
  let main_cst_8 : FVec F S_ .f32 := constant S_ .f32 0x7F800000#32
  let main_v25 : FVec F S64x10 .f32 := broadcastInDim S64x10 ![] bcast_S_S64x10 main_cst_8
  let main_v26 : IVec S64x10 1 := cmpf .olt main_v24 main_v25
  let main_c_9 : IVec S_ 1 := constantI S_ 1 1#1
  let main_v27 : IVec S_ 1 := (fun x v => Host.reduce IntOp.andi x v reducesTo_S64x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S50000x64 .f32) (main_arg1 : IVec S2x1600000 32) (main_arg2 : IVec S50000 32) (main_arg3 : FVec F S64x64 .f32) (main_arg4 : FVec F S64 .f32) (main_arg5 : FVec F S64x64 .f32) (main_arg6 : FVec F S64 .f32) (main_arg7 : FVec F S64x10 .f32) (main_arg8 : FVec F S10 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S50000x64 : Shape := ⟨2, ![50000, 64]⟩
abbrev S2x1600000 : Shape := ⟨2, ![2, 1600000]⟩
abbrev S50000 : Shape := ⟨1, ![50000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S10000x64 : Shape := ⟨2, ![10000, 64]⟩
abbrev S1650000x64 : Shape := ⟨2, ![1650000, 64]⟩
abbrev S1x64 : Shape := ⟨2, ![1, 64]⟩
abbrev S50000x1 : Shape := ⟨2, ![50000, 1]⟩
abbrev S64x1 : Shape := ⟨2, ![64, 1]⟩
abbrev S1x10 : Shape := ⟨2, ![1, 10]⟩

abbrev nBuf : Space → Nat
  | .hbm => 113
  | .vmem => 14
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S50000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x10, .f32⟩
  | .hbm, ⟨8, _⟩ => ⟨S10, .f32⟩
  | .hbm, ⟨9, _⟩ => ⟨S50000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S1x1600000, .i32⟩
  | .hbm, ⟨14, _⟩ => ⟨S1600000, .i32⟩
  | .hbm, ⟨15, _⟩ => ⟨S1650000, .i32⟩
  | .hbm, ⟨16, _⟩ => ⟨S_, .f32⟩
  | .hbm, ⟨17, _⟩ => ⟨S1650000, .f32⟩
  | .hbm, ⟨18, _⟩ => ⟨S_, .f32⟩
  | .hbm, ⟨19, _⟩ => ⟨S50000, .f32⟩
  | .hbm, ⟨20, _⟩ => ⟨S1650000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S1650000, .i32⟩
  | .hbm, ⟨32, _⟩ => ⟨S1650000, .i1⟩
  | .hbm, ⟨33, _⟩ => ⟨S_, .i32⟩
  | .hbm, ⟨34, _⟩ => ⟨S1650000, .i32⟩
  | .hbm, ⟨35, _⟩ => ⟨S1650000, .i32⟩
  | .hbm, ⟨36, _⟩ => ⟨S1650000, .i32⟩
  | .hbm, ⟨37, _⟩ => ⟨S1650000x1, .i32⟩
  | .hbm, ⟨38, _⟩ => ⟨S1650000, .f32⟩
  | .hbm, ⟨39, _⟩ => ⟨S_, .i32⟩
  | .hbm, ⟨40, _⟩ => ⟨S1650000, .i32⟩
  | .hbm, ⟨41, _⟩ => ⟨S1650000, .i1⟩
  | .hbm, ⟨42, _⟩ => ⟨S_, .i32⟩
  | .hbm, ⟨43, _⟩ => ⟨S1650000, .i32⟩
  | .hbm, ⟨44, _⟩ => ⟨S1650000, .i32⟩
  | .hbm, ⟨45, _⟩ => ⟨S1650000, .i32⟩
  | .hbm, ⟨46, _⟩ => ⟨S1650000x1, .i32⟩
  | .hbm, ⟨47, _⟩ => ⟨S1650000, .f32⟩
  | .hbm, ⟨48, _⟩ => ⟨S1650000, .f32⟩
  | .hbm, ⟨49, _⟩ => ⟨S50000x64, .f32⟩
  | .hbm, ⟨50, _⟩ => ⟨S_, .i32⟩
  | .hbm, ⟨51, _⟩ => ⟨S1650000, .i32⟩
  | .hbm, ⟨52, _⟩ => ⟨S1650000, .i1⟩
  | .hbm, ⟨53, _⟩ => ⟨S_, .i32⟩
  | .hbm, ⟨54, _⟩ => ⟨S1650000, .i32⟩
  | .hbm, ⟨55, _⟩ => ⟨S1650000, .i32⟩
  | .hbm, ⟨56, _⟩ => ⟨S1650000, .i32⟩
  | .hbm, ⟨57, _⟩ => ⟨S1650000x1, .i32⟩
  | .hbm, ⟨58, _⟩ => ⟨S1650000x64, .f32⟩
  | .hbm, ⟨59, _⟩ => ⟨S1650000x1, .f32⟩
  | .hbm, ⟨60, _⟩ => ⟨S1650000x64, .f32⟩
  | .hbm, ⟨61, _⟩ => ⟨S1650000x64, .f32⟩
  | .hbm, ⟨62, _⟩ => ⟨S_, .f32⟩
  | .hbm, ⟨63, _⟩ => ⟨S50000x64, .f32⟩
  | .hbm, ⟨64, _⟩ => ⟨S1650000x1, .i32⟩
  | .hbm, ⟨65, _⟩ => ⟨S50000x64, .f32⟩
  | .hbm, ⟨66, _⟩ => ⟨S1x64, .f32⟩
  | .hbm, ⟨67, _⟩ => ⟨S50000x64, .f32⟩
  | .hbm, ⟨68, _⟩ => ⟨S50000x64, .f32⟩
  | .hbm, ⟨69, _⟩ => ⟨S_, .f32⟩
  | .hbm, ⟨70, _⟩ => ⟨S50000x64, .f32⟩
  | .hbm, ⟨71, _⟩ => ⟨S50000x64, .f32⟩
  | .hbm, ⟨72, _⟩ => ⟨S50000x64, .f32⟩
  | .hbm, ⟨73, _⟩ => ⟨S_, .i32⟩
  | .hbm, ⟨74, _⟩ => ⟨S1650000, .i32⟩
  | .hbm, ⟨75, _⟩ => ⟨S1650000, .i1⟩
  | .hbm, ⟨76, _⟩ => ⟨S_, .i32⟩
  | .hbm, ⟨77, _⟩ => ⟨S1650000, .i32⟩
  | .hbm, ⟨78, _⟩ => ⟨S1650000, .i32⟩
  | .hbm, ⟨79, _⟩ => ⟨S1650000, .i32⟩
  | .hbm, ⟨80, _⟩ => ⟨S1650000x1, .i32⟩
  | .hbm, ⟨81, _⟩ => ⟨S1650000x64, .f32⟩
  | .hbm, ⟨82, _⟩ => ⟨S1650000x1, .f32⟩
  | .hbm, ⟨83, _⟩ => ⟨S1650000x64, .f32⟩
  | .hbm, ⟨84, _⟩ => ⟨S1650000x64, .f32⟩
  | .hbm, ⟨85, _⟩ => ⟨S_, .f32⟩
  | .hbm, ⟨86, _⟩ => ⟨S50000x64, .f32⟩
  | .hbm, ⟨87, _⟩ => ⟨S1650000x1, .i32⟩
  | .hbm, ⟨88, _⟩ => ⟨S50000x64, .f32⟩
  | .hbm, ⟨89, _⟩ => ⟨S1x64, .f32⟩
  | .hbm, ⟨90, _⟩ => ⟨S50000x64, .f32⟩
  | .hbm, ⟨91, _⟩ => ⟨S50000x64, .f32⟩
  | .hbm, ⟨92, _⟩ => ⟨S_, .f32⟩
  | .hbm, ⟨93, _⟩ => ⟨S50000x64, .f32⟩
  | .hbm, ⟨94, _⟩ => ⟨S50000x64, .f32⟩
  | .hbm, ⟨95, _⟩ => ⟨S_, .f32⟩
  | .hbm, ⟨96, _⟩ => ⟨S64x64, .f32⟩
  | .hbm, ⟨97, _⟩ => ⟨S50000x1, .i32⟩
  | .hbm, ⟨98, _⟩ => ⟨S64x64, .f32⟩
  | .hbm, ⟨99, _⟩ => ⟨S_, .f32⟩
  | .hbm, ⟨100, _⟩ => ⟨S50000, .f32⟩
  | .hbm, ⟨101, _⟩ => ⟨S_, .f32⟩
  | .hbm, ⟨102, _⟩ => ⟨S64, .f32⟩
  | .hbm, ⟨103, _⟩ => ⟨S50000x1, .i32⟩
  | .hbm, ⟨104, _⟩ => ⟨S64, .f32⟩
  | .hbm, ⟨105, _⟩ => ⟨S_, .f32⟩
  | .hbm, ⟨106, _⟩ => ⟨S64, .f32⟩
  | .hbm, ⟨107, _⟩ => ⟨S64, .f32⟩
  | .hbm, ⟨108, _⟩ => ⟨S64x1, .f32⟩
  | .hbm, ⟨109, _⟩ => ⟨S64x64, .f32⟩
  | .hbm, ⟨110, _⟩ => ⟨S64x64, .f32⟩
  | .hbm, ⟨111, _⟩ => ⟨S1x10, .f32⟩
  | .hbm, ⟨112, _⟩ => ⟨S64x10, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | .local _ .vmem, ⟨10, _⟩ => ⟨S64x64, .f32⟩
  | .local _ .vmem, ⟨11, _⟩ => ⟨S64x10, .f32⟩
  | .local _ .vmem, ⟨12, _⟩ => ⟨S1x10, .f32⟩
  | .local _ .vmem, ⟨13, _⟩ => ⟨S64x10, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_v65 : Ref sig .tc := ⟨.hbm, 94, rfl⟩
abbrev main_cst_12 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_13 : Ref sig .tc := ⟨.hbm, 99, rfl⟩
abbrev main_v69 : Ref sig .tc := ⟨.hbm, 100, rfl⟩
abbrev main_cst_14 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_15 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem3_0 : DmaSem sig := 13

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S10000x64_S10000x64 : S10000x64.ShapeCasts S10000x64
  bcast_S_S64x64 : S_.BroadcastsInDim S64x64 (![] : Fin 0 → Fin S64x64.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  shapeCasts_S10_S1x10 : S10.ShapeCasts S1x10
  shapeCasts_S64x64_S64x64 : S64x64.ShapeCasts S64x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S10000x64_S64x64_S10000x64_1_0_0_1_n_n_wf : DotDims.WF S10000x64 S64x64 S10000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x10_S64x10_1_0_0_1_n_n_wf : DotDims.WF S64x64 S64x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S50000x64.size a
  hwx1_2 : ∀ i : grid1.Coords, EltTy.bits .f32 = 32 ∨ (Rect.block (s := S50000x64) S10000x64.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x64.size a ≤ S64x64.size a
  hwx2_0 : ∀ i : grid2.Coords, EltTy.bits .f32 = 32 ∨ (Rect.block (s := S64x64) S64x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x10.size a ≤ S64x10.size a
  hwx2_1 : ∀ i : grid2.Coords, EltTy.bits .f32 = 32 ∨ (Rect.block (s := S64x10) S64x10.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x10.size a ≤ S1x10.size a
  hwx2_2 : ∀ i : grid2.Coords, EltTy.bits .f32 = 32 ∨ (Rect.block (s := S1x10) S1x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x10.size a ≤ S64x10.size a
  hwx2_3 : ∀ i : grid2.Coords, EltTy.bits .f32 = 32 ∨ (Rect.block (s := S64x10) S64x10.size (cc2_transform_3 i) (hinb2_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v77) S64x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v78) S1x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v79) S64x10.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S50000 : Shape := ⟨1, ![50000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x64 : Shape := ⟨2, ![1650000, 64]⟩
abbrev S1x64 : Shape := ⟨2, ![1, 64]⟩
abbrev S50000x1 : Shape := ⟨2, ![50000, 1]⟩
abbrev S64x1 : Shape := ⟨2, ![64, 1]⟩
abbrev S1x10 : Shape := ⟨2, ![1, 10]⟩

abbrev nBuf : Space → Nat
  | .hbm => 134
  | .vmem => 0
  | .smem => 0
  | _ => 0

abbrev hbmTy0_0 (i : Nat) : BufTy := match i % 128 with
  | 0 => ⟨S50000x64, .f32⟩
  | 1 => ⟨S2x1600000, .i32⟩
  | 2 => ⟨S50000, .i32⟩
  | 3 => ⟨S64x64, .f32⟩
  | 4 => ⟨S64, .f32⟩
  | 5 => ⟨S64x64, .f32⟩
  | 6 => ⟨S64, .f32⟩
  | 7 => ⟨S64x10, .f32⟩
  | 8 => ⟨S10, .f32⟩
  | 9 => ⟨S50000, .i32⟩
  | 10 => ⟨S1x1600000, .i32⟩
  | 11 => ⟨S1600000, .i32⟩
  | 12 => ⟨S1650000, .i32⟩
  | 13 => ⟨S1x1600000, .i32⟩
  | 14 => ⟨S1600000, .i32⟩
  | 15 => ⟨S1650000, .i32⟩
  | 16 => ⟨S_, .f32⟩
  | 17 => ⟨S1650000, .f32⟩
  | 18 => ⟨S_, .f32⟩
  | 19 => ⟨S50000, .f32⟩
  | 20 => ⟨S1650000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S50000x64, .f32⟩
  | 31 => ⟨S_, .i32⟩
  | 32 => ⟨S1650000, .i32⟩
  | 33 => ⟨S1650000, .i1⟩
  | 34 => ⟨S_, .i32⟩
  | 35 => ⟨S1650000, .i32⟩
  | 36 => ⟨S1650000, .i32⟩
  | 37 => ⟨S1650000, .i32⟩
  | 38 => ⟨S1650000x1, .i32⟩
  | 39 => ⟨S1650000, .f32⟩
  | 40 => ⟨S_, .i32⟩
  | 41 => ⟨S1650000, .i32⟩
  | 42 => ⟨S1650000, .i1⟩
  | 43 => ⟨S_, .i32⟩
  | 44 => ⟨S1650000, .i32⟩
  | 45 => ⟨S1650000, .i32⟩
  | 46 => ⟨S1650000, .i32⟩
  | 47 => ⟨S1650000x1, .i32⟩
  | 48 => ⟨S1650000, .f32⟩
  | 49 => ⟨S1650000, .f32⟩
  | 50 => ⟨S_, .i32⟩
  | 51 => ⟨S1650000, .i32⟩
  | 52 => ⟨S1650000, .i1⟩
  | 53 => ⟨S_, .i32⟩
  | 54 => ⟨S1650000, .i32⟩
  | 55 => ⟨S1650000, .i32⟩
  | 56 => ⟨S1650000, .i32⟩
  | 57 => ⟨S1650000x1, .i32⟩
  | 58 => ⟨S1650000x64, .f32⟩
  | 59 => ⟨S1650000x1, .f32⟩
  | 60 => ⟨S1650000x64, .f32⟩
  | 61 => ⟨S1650000x64, .f32⟩
  | 62 => ⟨S_, .f32⟩
  | 63 => ⟨S50000x64, .f32⟩
  | 64 => ⟨S1650000x1, .i32⟩
  | 65 => ⟨S50000x64, .f32⟩
  | 66 => ⟨S1x64, .f32⟩
  | 67 => ⟨S50000x64, .f32⟩
  | 68 => ⟨S50000x64, .f32⟩
  | 69 => ⟨S_, .f32⟩
  | 70 => ⟨S50000x64, .f32⟩
  | 71 => ⟨S50000x64, .f32⟩
  | 72 => ⟨S50000x64, .f32⟩
  | 73 => ⟨S_, .i32⟩
  | 74 => ⟨S1650000, .i32⟩
  | 75 => ⟨S1650000, .i1⟩
  | 76 => ⟨S_, .i32⟩
  | 77 => ⟨S1650000, .i32⟩
  | 78 => ⟨S1650000, .i32⟩
  | 79 => ⟨S1650000, .i32⟩
  | 80 => ⟨S1650000x1, .i32⟩
  | 81 => ⟨S1650000, .f32⟩
  | 82 => ⟨S_, .i32⟩
  | 83 => ⟨S1650000, .i32⟩
  | 84 => ⟨S1650000, .i1⟩
  | 85 => ⟨S_, .i32⟩
  | 86 => ⟨S1650000, .i32⟩
  | 87 => ⟨S1650000, .i32⟩
  | 88 => ⟨S1650000, .i32⟩
  | 89 => ⟨S1650000x1, .i32⟩
  | 90 => ⟨S1650000, .f32⟩
  | 91 => ⟨S1650000, .f32⟩
  | 92 => ⟨S_, .i32⟩
  | 93 => ⟨S1650000, .i32⟩
  | 94 => ⟨S1650000, .i1⟩
  | 95 => ⟨S_, .i32⟩
  | 96 => ⟨S1650000, .i32⟩
  | 97 => ⟨S1650000, .i32⟩
  | 98 => ⟨S1650000, .i32⟩
  | 99 => ⟨S1650000x1, .i32⟩
  | 100 => ⟨S1650000x64, .f32⟩
  | 101 => ⟨S1650000x1, .f32⟩
  | 102 => ⟨S1650000x64, .f32⟩
  | 103 => ⟨S1650000x64, .f32⟩
  | 104 => ⟨S_, .f32⟩
  | 105 => ⟨S50000x64, .f32⟩
  | 106 => ⟨S1650000x1, .i32⟩
  | 107 => ⟨S50000x64, .f32⟩
  | 108 => ⟨S1x64, .f32⟩
  | 109 => ⟨S50000x64, .f32⟩
  | 110 => ⟨S50000x64, .f32⟩
  | 111 => ⟨S_, .f32⟩
  | 112 => ⟨S50000x64, .f32⟩
  | 113 => ⟨S50000x64, .f32⟩
  | 114 => ⟨S_, .f32⟩
  | 115 => ⟨S64x64, .f32⟩
  | 116 => ⟨S50000x1, .i32⟩
  | 117 => ⟨S64x64, .f32⟩
  | 118 => ⟨S_, .f32⟩
  | 119 => ⟨S50000, .f32⟩
  | 120 => ⟨S_, .f32⟩
  | 121 => ⟨S64, .f32⟩
  | 122 => ⟨S50000x1, .i32⟩
  | 123 => ⟨S64, .f32⟩
  | 124 => ⟨S_, .f32⟩
  | 125 => ⟨S64, .f32⟩
  | 126 => ⟨S64, .f32⟩
  | 127 => ⟨S64x1, .f32⟩
  | _ => ⟨S50000x64, .f32⟩

abbrev hbmTy0_1 (i : Nat) : BufTy := match i % 128 with
  | 0 => ⟨S64x64, .f32⟩
  | 1 => ⟨S64x64, .f32⟩
  | 2 => ⟨S64x10, .f32⟩
  | 3 => ⟨S1x10, .f32⟩
  | 4 => ⟨S64x10, .f32⟩
  | 5 => ⟨S64x10, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_11 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_15 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_call2_cst : Ref sig .tc := ⟨.hbm, 111, rfl⟩
abbrev main_call2_v0 : Ref sig .tc := ⟨.hbm, 112, rfl⟩
abbrev main_v80 : Ref sig .tc := ⟨.hbm, 113, rfl⟩
abbrev main_cst_16 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_17 : Ref sig .tc := ⟨.hbm, 118, rfl⟩
abbrev main_v84 : Ref sig .tc := ⟨.hbm, 119, rfl⟩
abbrev main_cst_18 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_19 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64x64 : S_.BroadcastsInDim S64x64 (![] : Fin 0 → Fin S64x64.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S1650000x1_S1650000_n_0_0_1_wf : ScatterDims.WF S50000 S1650000x1 S1650000 [] [0] [0] 1
  dot_S50000x64_S64x64_S50000x64_1_0_0_1_n_n_wf : DotDims.WF S50000x64 S64x64 S50000x64 [1] [0] [0] [1] [] []
  gather_S50000_S1650000x1_S1650000_n_0_n_n_0_1_1_wf : GatherDims.WF S50000 S1650000x1 S1650000 [] [0] [] [0] [] 1 ![1]
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x10_S64x10_1_0_0_1_n_n_wf : DotDims.WF S64x64 S64x10 S64x10 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

class Facts : Prop extends Facts₀ where

variable [Facts]
-- ==== Proof.NamedRun.lean ====
/-
  The idealized kernel's run with its result named.

  @main is three kernel regions among stretches of host operations. Running the segments in order, every buffer that
  outlives a region ends at the last boundary's contents: a host stretch leaves each buffer at the fold of its operations
  over the contents it started from, a region leaves its own arrays at what its write-backs put there and every other
  buffer as it found it. So the result buffer (the last region's output array) ends at the last boundary's contents read
  at that buffer, and each argument, which nothing writes, ends as launched.
-/
import proofs.«170577_j31602369364021_1_alg».proof.Proof.Gen.KernelIdeal.Frame

set_option maxRecDepth 16384

noncomputable section

namespace Cert.KernelIdeal.NamedRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents and every argument array ends as launched. -/
theorem run : θ_run defs (onTc (τ := τ) (main (F := F))) ⟨m, fun _ => 0, ρ⟩ (fun r => ∀ c : Dev nD,
      r.2.mem ((c.tc : Thread nD τ).loc main_v79) = W11 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v79 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.NamedRun

end
-- ==== Proof.Spec.lean ====
/-
  The model both programs compute, as one function of the argument arrays.

  A two-layer graph convolution with mean pooling and a linear classifier. The edge list is the given one with a self-loop
  appended at every node. The degree of a node is the number of edges that end at it; its normalising factor is the
  inverse square root of the degree where the degree is positive and zero elsewhere; an edge's weight is the product of
  its two end nodes' factors. A layer takes node features h, multiplies them by a weight matrix, and at every node sums
  the weighted rows of the sources of the edges ending there, adds the bias and applies the rectifier. The pooled
  features of a graph are the sum of its nodes' rows divided by the number of its nodes, or by one for an empty graph; the
  result is their product with the classifier's matrix plus its bias on every row. Every step is written with the host's
  own operations, over any float values: the dense products are the host's dot_general.
-/
import proofs.«170577_j31602369364021_1_alg».proof.ReferenceIdeal
import proofs.«170577_j31602369364021_1_alg».proof.Proof.Gen.ReferenceIdeal

noncomputable section

namespace Cert.Spec

open Idealize.ShloMosaic Cert.ReferenceIdeal Cert.ReferenceIdeal.Facts₀ Cert.ReferenceIdeal.Facts

variable {F : FTy → Type} [FloatOps F]

/-- The source node of every edge, the self-loops appended. -/
def src (x1 : (⟨S2x1600000, .i32⟩ : BufTy).Contents (Elt F)) : (⟨S1650000, .i32⟩ : BufTy).Contents (Elt F) :=
  concatenate S1650000 0 [⟨S1600000, shapeCast S1600000 (extractStridedSlice S1x1600000 ![0, 0] x1 slices_S2x1600000_S1x1600000_0_0) shapeCasts_S1x1600000_S1600000⟩, ⟨S50000, iotaInDim S50000 32 0⟩] concatenates_S1600000_S50000_S1650000_d0

/-- The destination node of every edge, the self-loops appended. -/
def dst (x1 : (⟨S2x1600000, .i32⟩ : BufTy).Contents (Elt F)) : (⟨S1650000, .i32⟩ : BufTy).Contents (Elt F) :=
  concatenate S1650000 0 [⟨S1600000, shapeCast S1600000 (extractStridedSlice S1x1600000 ![1, 0] x1 slices_S2x1600000_S1x1600000_1_0) shapeCasts_S1x1600000_S1600000⟩, ⟨S50000, iotaInDim S50000 32 0⟩] concatenates_S1600000_S50000_S1650000_d0

/-- Node numbers as a column of start indices, a negative number counted from the end. -/
def startIdx (v : (⟨S1650000, .i32⟩ : BufTy).Contents (Elt F)) : (⟨S1650000x1, .i32⟩ : BufTy).Contents (Elt F) :=
  broadcastInDim S1650000x1 ![0] bcast_S1650000_S1650000x1_0
    (select (cmpi .slt v (broadcastInDim S1650000 ![] bcast_S_S1650000 (constantI S_ 32 0#32)))
      (addi v (broadcastInDim S1650000 ![] bcast_S_S1650000 (constantI S_ 32 50000#32))) v)

/-- The number of edges ending at each node. -/
def deg (x1 : (⟨S2x1600000, .i32⟩ : BufTy).Contents (Elt F)) : (⟨S50000, .f32⟩ : BufTy).Contents (Elt F) :=
  Host.scatterAdd scatter_S50000_S1650000x1_S1650000_n_0_0_1
    (broadcastInDim S50000 ![] bcast_S_S50000 (constant S_ .f32 0x00000000#32))
    (broadcastInDim S1650000x1 ![0] bcast_S1650000_S1650000x1_0 (dst x1))
    (broadcastInDim S1650000 ![] bcast_S_S1650000 (constant S_ .f32 0x3F800000#32))

/-- A node's normalising factor: the inverse square root of its degree where that is positive, zero elsewhere. -/
def dinv (x1 : (⟨S2x1600000, .i32⟩ : BufTy).Contents (Elt F)) : (⟨S50000, .f32⟩ : BufTy).Contents (Elt F) :=
  select (cmpf (F := F) .ogt (deg x1) (broadcastInDim S50000 ![] bcast_S_S50000 (constant S_ .f32 0x00000000#32)))
    (Host.rsqrt (deg x1))
    (broadcastInDim S50000 ![] bcast_S_S50000 (constant S_ .f32 0x00000000#32))

/-- An edge's weight: the product of its two end nodes' factors. -/
def norm (x1 : (⟨S2x1600000, .i32⟩ : BufTy).Contents (Elt F)) : (⟨S1650000, .f32⟩ : BufTy).Contents (Elt F) :=
  mulf (Host.gather gather_S50000_S1650000x1_S1650000_n_0_n_n_0_1_1 (dinv x1) (startIdx (src x1)))
    (Host.gather gather_S50000_S1650000x1_S1650000_n_0_n_n_0_1_1 (dinv x1) (startIdx (dst x1)))

/-- Node features times a weight matrix. -/
def linear (h : (⟨S50000x64, .f32⟩ : BufTy).Contents (Elt F)) (w : (⟨S64x64, .f32⟩ : BufTy).Contents (Elt F)) : (⟨S50000x64, .f32⟩ : BufTy).Contents (Elt F) :=
  Host.dotGeneral dot_S50000x64_S64x64_S50000x64_1_0_0_1_n_n none h w

/-- Message passing on transformed features: at every node the weighted source rows of the edges ending there, summed;
    then the bias and the rectifier. -/
def aggregate (h : (⟨S50000x64, .f32⟩ : BufTy).Contents (Elt F)) (x1 : (⟨S2x1600000, .i32⟩ : BufTy).Contents (Elt F)) (b : (⟨S64, .f32⟩ : BufTy).Contents (Elt F)) : (⟨S50000x64, .f32⟩ : BufTy).Contents (Elt F) :=
  maximumf
    (addf
      (Host.scatterAdd scatter_S50000x64_S1650000x1_S1650000x64_1_0_0_1
        (broadcastInDim S50000x64 ![] bcast_S_S50000x64 (constant S_ .f32 0x00000000#32))
        (broadcastInDim S1650000x1 ![0] bcast_S1650000_S1650000x1_0 (dst x1))
        (mulf (Host.gather gather_S50000x64_S1650000x1_S1650000x64_1_0_n_n_0_1_164 h (startIdx (src x1)))
          (broadcastInDim S1650000x64 ![0, 1] bcast_S1650000x1_S1650000x64_0_1
            (broadcastInDim S1650000x1 ![0] bcast_S1650000_S1650000x1_0 (norm x1)))))
      (broadcastInDim S50000x64 ![0, 1] bcast_S1x64_S50000x64_0_1 (broadcastInDim S1x64 ![1] bcast_S64_S1x64_1 b)))
    (broadcastInDim S50000x64 ![] bcast_S_S50000x64 (constant S_ .f32 0x00000000#32))

/-- The first layer's activations. -/
def hidden1 (x0 : (⟨S50000x64, .f32⟩ : BufTy).Contents (Elt F)) (x1 : (⟨S2x1600000, .i32⟩ : BufTy).Contents (Elt F)) (x3 : (⟨S64x64, .f32⟩ : BufTy).Contents (Elt F)) (x4 : (⟨S64, .f32⟩ : BufTy).Contents (Elt F)) : (⟨S50000x64, .f32⟩ : BufTy).Contents (Elt F) :=
  aggregate (linear x0 x3) x1 x4

/-- The second layer's transformed features, before message passing. -/
def product2 (x0 : (⟨S50000x64, .f32⟩ : BufTy).Contents (Elt F)) (x1 : (⟨S2x1600000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) : (⟨S50000x64, .f32⟩ : BufTy).Contents (Elt F) :=
  linear (hidden1 x0 x1 x3 x4) x5

/-- Mean pooling: per graph the sum of its nodes' rows over the number of its nodes (one for an empty graph). -/
def pool (h : (⟨S50000x64, .f32⟩ : BufTy).Contents (Elt F)) (x2 : (⟨S50000, .i32⟩ : BufTy).Contents (Elt F)) : (⟨S64x64, .f32⟩ : BufTy).Contents (Elt F) :=
  Host.divf
    (Host.scatterAdd scatter_S64x64_S50000x1_S50000x64_1_0_0_1
      (broadcastInDim S64x64 ![] bcast_S_S64x64 (constant S_ .f32 0x00000000#32))
      (broadcastInDim S50000x1 ![0] bcast_S50000_S50000x1_0 x2) h)
    (broadcastInDim S64x64 ![0, 1] bcast_S64x1_S64x64_0_1 (broadcastInDim S64x1 ![0] bcast_S64_S64x1_0
      (maximumf
        (Host.scatterAdd scatter_S64_S50000x1_S50000_n_0_0_1
          (broadcastInDim S64 ![] bcast_S_S64 (constant S_ .f32 0x00000000#32))
          (broadcastInDim S50000x1 ![0] bcast_S50000_S50000x1_0 x2)
          (broadcastInDim S50000 ![] bcast_S_S50000 (constant S_ .f32 0x3F800000#32)))
        (broadcastInDim S64 ![] bcast_S_S64 (constant S_ .f32 0x3F800000#32)))))

/-- The pooled features of the second layer's activations. -/
def pooled (x0 : (⟨S50000x64, .f32⟩ : BufTy).Contents (Elt F)) (x1 : (⟨S2x1600000, .i32⟩ : BufTy).Contents (Elt F)) (x2 : (⟨S50000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) : (⟨S64x64, .f32⟩ : BufTy).Contents (Elt F) :=
  pool (aggregate (product2 x0 x1 x3 x4 x5) x1 x6) x2

/-- The classifier's bias laid over every row. -/
def biasRows (x8 : (⟨S10, .f32⟩ : BufTy).Contents (Elt F)) : (⟨S64x10, .f32⟩ : BufTy).Contents (Elt F) :=
  broadcastInDim S64x10 ![0, 1] bcast_S1x10_S64x10_0_1 (broadcastInDim S1x10 ![1] bcast_S10_S1x10_1 x8)

/-- The model's result. -/
def model (x0 : (⟨S50000x64, .f32⟩ : BufTy).Contents (Elt F)) (x1 : (⟨S2x1600000, .i32⟩ : BufTy).Contents (Elt F)) (x2 : (⟨S50000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x10, .f32⟩ : BufTy).Contents (Elt F)) (x8 : (⟨S10, .f32⟩ : BufTy).Contents (Elt F)) : (⟨S64x10, .f32⟩ : BufTy).Contents (Elt F) :=
  addf (Host.dotGeneral dot_S64x64_S64x10_S64x10_1_0_0_1_n_n none (pooled x0 x1 x2 x3 x4 x5 x6) x7) (biasRows x8)

end Cert.Spec

end
-- ==== Proof.FoldRead.lean ====
/-
  Reading a buffer off a fold of host operations: one simp pass over the operations' result equations, then the few
  results that pass cannot reach, by rewriting.
-/
import Idealize.ShloMosaic.Lib.StableHlo.Run

namespace Cert.FoldRead

open Idealize.ShloMosaic Idealize.ShloMosaic.StableHlo

/-- Reads, by rewriting, the results the one-pass form leaves unread (an operation's result under a concatenation's list of
    operands, where a congruence through the dependent pair is not available to simp). -/
macro "finish_reads" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

/-- A buffer's contents after a literal line of host operations, as the operations' composed term of the contents the
    line started from. -/
macro "read_fold" : tactic => `(tactic| (after_results_simp; finish_reads))

end Cert.FoldRead
-- ==== Proof.HostStages.lean ====
/-
  The host operations between the kernel regions, read as the model's stages.

  The idealized kernel runs the model's host operations around its three dense products: the edge list with the
  self-loops appended, the degree by a scatter-add of ones, its inverse square root where the degree is positive, the edge
  weight (the product of the two gathered factors), the gather of source rows scaled by the weight and scatter-added into
  destination rows, the bias and the rectifier, and the mean pooling over graphs. So each buffer a kernel region reads, and
  each buffer a later host stretch reads, holds the model's stage of the launch arguments — provided the region before it
  left the dense product in its output array, which is a hypothesis here and is proved at the ideal instance elsewhere.
  The kernel computes the edge weights once and uses them in both layers; the model's term names them once per layer: the
  same term. A region changes only its own output array, and no host operation writes a buffer twice, so a stage computed
  before a region is still there after it.
-/
import proofs.«170577_j31602369364021_1_alg».proof.Defs
import proofs.«170577_j31602369364021_1_alg».proof.Proof.Gen.KernelIdeal.Frame
import proofs.«170577_j31602369364021_1_alg».proof.Proof.Spec
import proofs.«170577_j31602369364021_1_alg».proof.Proof.FoldRead

set_option maxRecDepth 16384

noncomputable section

namespace Cert.Bridge

open Idealize.ShloMosaic Idealize.ShloMosaic.TcCoe Idealize.SL.Sem Idealize.ShloMosaic.StableHlo
open Cert.KernelIdeal Cert.KernelIdeal.Gen
open Cert.FoldRead

variable {F : FTy → Type} [FloatOps F]
variable (m : (ℓ : Loc nD τ sig) → Buf (Elt F) ℓ) (ρ : Dev nD → PrngReg) (c : Dev nD)

/-- The launch contents of the argument arrays. -/
abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)
abbrev a7 := m ((c.tc : Thread nD τ).loc main_arg7)
abbrev a8 := m ((c.tc : Thread nD τ).loc main_arg8)

/-! ## Up to the first region: the edge list and the edge weights -/

/-- The source nodes with the self-loops appended. -/
theorem src3 : W3 m ρ c (Proc.devRef .tc main_v3) = Cert.Spec.src (F := F) (a1 m c) := by
  show StableHlo.after hostOps0_2 (StableHlo.after hostOps0_1 (StableHlo.after hostOps0 (W0 m ρ c))) (Proc.devRef .tc main_v3) = _
  read_fold
  rfl

/-- The destination nodes with the self-loops appended. -/
theorem dst3 : W3 m ρ c (Proc.devRef .tc main_v6) = Cert.Spec.dst (F := F) (a1 m c) := by
  show StableHlo.after hostOps0_2 (StableHlo.after hostOps0_1 (StableHlo.after hostOps0 (W0 m ρ c))) (Proc.devRef .tc main_v6) = _
  read_fold
  rfl

/-- The edge weights: the product of the two end nodes' factors. -/
theorem norm3 : W3 m ρ c (Proc.devRef .tc main_v29) = Cert.Spec.norm (F := F) (a1 m c) := by
  show StableHlo.after hostOps0_2 (StableHlo.after hostOps0_1 (StableHlo.after hostOps0 (W0 m ρ c))) (Proc.devRef .tc main_v29) = _
  read_fold
  rfl

/-- No host operation writes an argument. -/
theorem arg0_3 : W3 m ρ c (Proc.devRef .tc main_arg0) = a0 m c := by
  show StableHlo.after hostOps0_2 (StableHlo.after hostOps0_1 (StableHlo.after hostOps0 (W0 m ρ c))) (Proc.devRef .tc main_arg0) = _
  after_results_simp
theorem arg2_3 : W3 m ρ c (Proc.devRef .tc main_arg2) = a2 m c := by
  show StableHlo.after hostOps0_2 (StableHlo.after hostOps0_1 (StableHlo.after hostOps0 (W0 m ρ c))) (Proc.devRef .tc main_arg2) = _
  after_results_simp
theorem arg3_3 : W3 m ρ c (Proc.devRef .tc main_arg3) = a3 m c := by
  show StableHlo.after hostOps0_2 (StableHlo.after hostOps0_1 (StableHlo.after hostOps0 (W0 m ρ c))) (Proc.devRef .tc main_arg3) = _
  after_results_simp
theorem arg4_3 : W3 m ρ c (Proc.devRef .tc main_arg4) = a4 m c := by
  show StableHlo.after hostOps0_2 (StableHlo.after hostOps0_1 (StableHlo.after hostOps0 (W0 m ρ c))) (Proc.devRef .tc main_arg4) = _
  after_results_simp
theorem arg5_3 : W3 m ρ c (Proc.devRef .tc main_arg5) = a5 m c := by
  show StableHlo.after hostOps0_2 (StableHlo.after hostOps0_1 (StableHlo.after hostOps0 (W0 m ρ c))) (Proc.devRef .tc main_arg5) = _
  after_results_simp
theorem arg6_3 : W3 m ρ c (Proc.devRef .tc main_arg6) = a6 m c := by
  show StableHlo.after hostOps0_2 (StableHlo.after hostOps0_1 (StableHlo.after hostOps0 (W0 m ρ c))) (Proc.devRef .tc main_arg6) = _
  after_results_simp
theorem arg7_3 : W3 m ρ c (Proc.devRef .tc main_arg7) = a7 m c := by
  show StableHlo.after hostOps0_2 (StableHlo.after hostOps0_1 (StableHlo.after hostOps0 (W0 m ρ c))) (Proc.devRef .tc main_arg7) = _
  after_results_simp
theorem arg8_3 : W3 m ρ c (Proc.devRef .tc main_arg8) = a8 m c := by
  show StableHlo.after hostOps0_2 (StableHlo.after hostOps0_1 (StableHlo.after hostOps0 (W0 m ρ c))) (Proc.devRef .tc main_arg8) = _
  after_results_simp

/-! ## Across the first region: only its output array changes -/

theorem src4 : W4 m ρ c (Proc.devRef .tc main_v3) = Cert.Spec.src (F := F) (a1 m c) :=
  (W4_of_ne m ρ c main_v3 (by decide)).trans (src3 m ρ c)
theorem dst4 : W4 m ρ c (Proc.devRef .tc main_v6) = Cert.Spec.dst (F := F) (a1 m c) :=
  (W4_of_ne m ρ c main_v6 (by decide)).trans (dst3 m ρ c)
theorem norm4 : W4 m ρ c (Proc.devRef .tc main_v29) = Cert.Spec.norm (F := F) (a1 m c) :=
  (W4_of_ne m ρ c main_v29 (by decide)).trans (norm3 m ρ c)
theorem arg2_4 : W4 m ρ c (Proc.devRef .tc main_arg2) = a2 m c := (W4_of_ne m ρ c main_arg2 (by decide)).trans (arg2_3 m ρ c)
theorem arg4_4 : W4 m ρ c (Proc.devRef .tc main_arg4) = a4 m c := (W4_of_ne m ρ c main_arg4 (by decide)).trans (arg4_3 m ρ c)
theorem arg5_4 : W4 m ρ c (Proc.devRef .tc main_arg5) = a5 m c := (W4_of_ne m ρ c main_arg5 (by decide)).trans (arg5_3 m ρ c)
theorem arg6_4 : W4 m ρ c (Proc.devRef .tc main_arg6) = a6 m c := (W4_of_ne m ρ c main_arg6 (by decide)).trans (arg6_3 m ρ c)
theorem arg7_4 : W4 m ρ c (Proc.devRef .tc main_arg7) = a7 m c := (W4_of_ne m ρ c main_arg7 (by decide)).trans (arg7_3 m ρ c)
theorem arg8_4 : W4 m ρ c (Proc.devRef .tc main_arg8) = a8 m c := (W4_of_ne m ρ c main_arg8 (by decide)).trans (arg8_3 m ρ c)

/-! ## From the first region's product to the second region's entry -/

section Layer1
variable (h30 : W4 m ρ c (Proc.devRef .tc main_v30) = Cert.Spec.linear (F := F) (a0 m c) (a3 m c))
include h30

/-- The first layer's activations: gather, scale, scatter-add, bias, rectifier. -/
theorem act6 : W6 m ρ c (Proc.devRef .tc main_v47) = Cert.Spec.hidden1 (F := F) (a0 m c) (a1 m c) (a3 m c) (a4 m c) := by
  show StableHlo.after hostOps1_1 (StableHlo.after hostOps1 (W4 m ρ c)) (Proc.devRef .tc main_v47) = _
  after_results_simp
  rw [h30, src4, dst4, norm4, arg4_4]
  rfl

end Layer1

theorem src6 : W6 m ρ c (Proc.devRef .tc main_v3) = Cert.Spec.src (F := F) (a1 m c) := by
  show StableHlo.after hostOps1_1 (StableHlo.after hostOps1 (W4 m ρ c)) (Proc.devRef .tc main_v3) = _
  after_results_simp
  exact src4 m ρ c
theorem dst6 : W6 m ρ c (Proc.devRef .tc main_v6) = Cert.Spec.dst (F := F) (a1 m c) := by
  show StableHlo.after hostOps1_1 (StableHlo.after hostOps1 (W4 m ρ c)) (Proc.devRef .tc main_v6) = _
  after_results_simp
  exact dst4 m ρ c
theorem norm6 : W6 m ρ c (Proc.devRef .tc main_v29) = Cert.Spec.norm (F := F) (a1 m c) := by
  show StableHlo.after hostOps1_1 (StableHlo.after hostOps1 (W4 m ρ c)) (Proc.devRef .tc main_v29) = _
  after_results_simp
  exact norm4 m ρ c
theorem arg2_6 : W6 m ρ c (Proc.devRef .tc main_arg2) = a2 m c := by
  show StableHlo.after hostOps1_1 (StableHlo.after hostOps1 (W4 m ρ c)) (Proc.devRef .tc main_arg2) = _
  after_results_simp
  exact arg2_4 m ρ c
theorem arg5_6 : W6 m ρ c (Proc.devRef .tc main_arg5) = a5 m c := by
  show StableHlo.after hostOps1_1 (StableHlo.after hostOps1 (W4 m ρ c)) (Proc.devRef .tc main_arg5) = _
  after_results_simp
  exact arg5_4 m ρ c
theorem arg6_6 : W6 m ρ c (Proc.devRef .tc main_arg6) = a6 m c := by
  show StableHlo.after hostOps1_1 (StableHlo.after hostOps1 (W4 m ρ c)) (Proc.devRef .tc main_arg6) = _
  after_results_simp
  exact arg6_4 m ρ c
theorem arg7_6 : W6 m ρ c (Proc.devRef .tc main_arg7) = a7 m c := by
  show StableHlo.after hostOps1_1 (StableHlo.after hostOps1 (W4 m ρ c)) (Proc.devRef .tc main_arg7) = _
  after_results_simp
  exact arg7_4 m ρ c
theorem arg8_6 : W6 m ρ c (Proc.devRef .tc main_arg8) = a8 m c := by
  show StableHlo.after hostOps1_1 (StableHlo.after hostOps1 (W4 m ρ c)) (Proc.devRef .tc main_arg8) = _
  after_results_simp
  exact arg8_4 m ρ c

/-! ## Across the second region -/

theorem src7 : W7 m ρ c (Proc.devRef .tc main_v3) = Cert.Spec.src (F := F) (a1 m c) :=
  (W7_of_ne m ρ c main_v3 (by decide)).trans (src6 m ρ c)
theorem dst7 : W7 m ρ c (Proc.devRef .tc main_v6) = Cert.Spec.dst (F := F) (a1 m c) :=
  (W7_of_ne m ρ c main_v6 (by decide)).trans (dst6 m ρ c)
theorem norm7 : W7 m ρ c (Proc.devRef .tc main_v29) = Cert.Spec.norm (F := F) (a1 m c) :=
  (W7_of_ne m ρ c main_v29 (by decide)).trans (norm6 m ρ c)
theorem arg2_7 : W7 m ρ c (Proc.devRef .tc main_arg2) = a2 m c := (W7_of_ne m ρ c main_arg2 (by decide)).trans (arg2_6 m ρ c)
theorem arg6_7 : W7 m ρ c (Proc.devRef .tc main_arg6) = a6 m c := (W7_of_ne m ρ c main_arg6 (by decide)).trans (arg6_6 m ρ c)
theorem arg7_7 : W7 m ρ c (Proc.devRef .tc main_arg7) = a7 m c := (W7_of_ne m ρ c main_arg7 (by decide)).trans (arg7_6 m ρ c)
theorem arg8_7 : W7 m ρ c (Proc.devRef .tc main_arg8) = a8 m c := (W7_of_ne m ρ c main_arg8 (by decide)).trans (arg8_6 m ρ c)

/-! ## From the second region's product to the last region's entry -/

section Layer2
variable (h48 : W7 m ρ c (Proc.devRef .tc main_v48)
  = Cert.Spec.product2 (F := F) (a0 m c) (a1 m c) (a3 m c) (a4 m c) (a5 m c))
include h48

/-- The pooled features: the second layer's activations summed per graph and divided by the graph's size (at least one). -/
theorem pooled10 : W10 m ρ c (Proc.devRef .tc main_v77)
    = Cert.Spec.pooled (F := F) (a0 m c) (a1 m c) (a2 m c) (a3 m c) (a4 m c) (a5 m c) (a6 m c) := by
  show StableHlo.after hostOps2_2 (StableHlo.after hostOps2_1 (StableHlo.after hostOps2 (W7 m ρ c))) (Proc.devRef .tc main_v77) = _
  after_results_simp
  rw [h48, src7, dst7, norm7, arg6_7, arg2_7]
  rfl

end Layer2

/-- The classifier's weights reach the last region as launched. -/
theorem arg7_10 : W10 m ρ c (Proc.devRef .tc main_arg7) = a7 m c := by
  show StableHlo.after hostOps2_2 (StableHlo.after hostOps2_1 (StableHlo.after hostOps2 (W7 m ρ c))) (Proc.devRef .tc main_arg7) = _
  after_results_simp
  exact arg7_7 m ρ c

/-- The bias reaches the last region as a one-row matrix. -/
theorem bias10 : W10 m ρ c (Proc.devRef .tc main_v78)
    = (shapeCast S1x10 (a8 m c) shapeCasts_S10_S1x10 : (⟨S1x10, .f32⟩ : BufTy).Contents (Elt F)) := by
  show StableHlo.after hostOps2_2 (StableHlo.after hostOps2_1 (StableHlo.after hostOps2 (W7 m ρ c))) (Proc.devRef .tc main_v78) = _
  after_results_simp
  rw [arg8_7]
  rfl

end Cert.Bridge

end
-- ==== Proof.LibPlainDot.lean ====
/-
  A plain matrix product read at an index, at the ideal instance.

  For a rank-2 contraction [a, K] · [K, b] → [a, b] (the left operand's axis 1 against the right operand's axis 0, no batch
  axis), the accumulate-into-zero matrix product and the host's dot_general are both, at the result index (p, q), the sum
  over k < K of lhs (p, k) · rhs (k, q): the contracted shape has one axis of extent K, so the sum over its indices is a
  sum over Fin K, and the operand indices the contraction names at (p, q) and k are (p, k) and (k, q). The four coordinate
  facts about a given dimension record (hl0, hl1, hr0, hr1) are taken as hypotheses: for a literal record each is a
  computation.
-/
import Idealize.ShloMosaic.PureOps.Ideal.Laws
import Idealize.ShloMosaic.Lib.ValueIdx

noncomputable section

namespace Cert.Lib.PlainDot

open Idealize.ShloMosaic Idealize.ShloMosaic.ValueIdx

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The sum over the contracted shape's indices of the products of the operands at the contraction's indices is the
    sum over k < K of lhs (p, k) · rhs (k, q). -/
theorem sum_contr (lhs : (⟨2, ![a, K]⟩ : Shape).Idx → EReal) (rhs : (⟨2, ![K, b]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

/-- The matrix product accumulated into the zero splat, at (p, q). -/
theorem matmul_zero_apply (prec : Option ContractPrecision) (lhs : FVec Ideal (⟨2, ![a, K]⟩ : Shape) .f32) (rhs : FVec Ideal (⟨2, ![K, b]⟩ : Shape) .f32)
    (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans (sum_contr D hr hs hl0 hl1 hr0 hr1 lhs rhs p q)

/-- The host's dot_general, at (p, q). -/
theorem dotGeneral_apply (prec : Option ContractPrecision) (lhs : FVec Ideal (⟨2, ![a, K]⟩ : Shape) .f32) (rhs : FVec Ideal (⟨2, ![K, b]⟩ : Shape) .f32)
    (p : Fin a) (q : Fin b) :
    Host.dotGeneral D prec lhs rhs (ix2 p q) = ∑ k : Fin K, lhs (ix2 p k) * rhs (ix2 k q) :=
  (Ideal.dotGeneral_apply D prec .single lhs rhs (ix2 p q)).trans (sum_contr D hr hs hl0 hl1 hr0 hr1 lhs rhs p q)

end Cert.Lib.PlainDot

end
-- ==== Proof.LibHostBroadcast.lean ====
/-
  The host's broadcast along named axes, read at an index, for two layouts.

  A row [1, n] broadcast over a matrix [a, n] with its axes sent to axes 0 and 1 holds at (p, q) the row's entry of
  lane q: along axis 0 the source's extent is one, so the coordinate read there is 0 whatever p is; along axis 1 the
  coordinate is kept (and when n = 1 the only coordinate is 0 anyway). A scalar broadcast over any shape holds the
  scalar everywhere: the source has no axis to read a coordinate for. The entries may be of any type.
-/
import Idealize.ShloMosaic.Lib.ValueIdx
import Idealize.ShloMosaic.Lib.Pipeline.Value

noncomputable section

namespace Cert.Lib.HostBroadcast

open Idealize.ShloMosaic Idealize.ShloMosaic.ValueIdx

variable {α : Type}

/-- A row [1, n] broadcast to [a, n] along axes 0 and 1 reads, at (p, q), the row at (0, q). -/
theorem row_matrix_apply {a n : ℕ} (y : (⟨2, ![1, n]⟩ : Shape).Idx → α)
    (hb : (⟨2, ![1, n]⟩ : Shape).BroadcastsInDim (⟨2, ![a, n]⟩ : Shape) (![0, 1] : Fin 2 → Fin (⟨2, ![a, n]⟩ : Shape).rank))
    (p : Fin a) (q : Fin n) :
    broadcastInDim (⟨2, ![a, n]⟩ : Shape) ![0, 1] hb y (ix2 p q) = y (ix2 (0 : Fin 1) q) :=
  broadcastInDim_apply _ hb y (ix2 p q) (ix2 (0 : Fin 1) q) (fun ax => match ax with
    | ⟨0, _⟩ => rfl
    | ⟨1, _⟩ => by
      show q.val = if n = 1 then 0 else q.val
      split
      · have := q.isLt; omega
      · rfl)

/-- A scalar broadcast to any shape reads the scalar at every index. -/
theorem scalar_apply {t : Shape} (y : (⟨0, ![]⟩ : Shape).Idx → α)
    (hb : (⟨0, ![]⟩ : Shape).BroadcastsInDim t (![] : Fin 0 → Fin t.rank)) (j : t.Idx) :
    broadcastInDim t ![] hb y j = y ix0 :=
  broadcastInDim_apply _ hb y j ix0 (fun ax => ax.elim0)

end Cert.Lib.HostBroadcast

end
-- ==== Proof.SpecReads.lean ====
/-
  The model's dense products and its bias rows read at an index, at the ideal instance: a product of node features with a
  weight matrix at (p, q) is the sum over the 64 contracted lanes of feature (p, k) times weight (k, q), and so is the
  classifier's product; the bias rows at (p, q) hold the bias's entry q on every row p.
-/
import proofs.«170577_j31602369364021_1_alg».proof.Proof.Spec
import proofs.«170577_j31602369364021_1_alg».proof.Proof.LibPlainDot
import proofs.«170577_j31602369364021_1_alg».proof.Proof.LibHostBroadcast
import Idealize.ShloMosaic.Lib.Pipeline.Value

noncomputable section

namespace Cert.Spec

open Idealize.ShloMosaic Idealize.ShloMosaic.ValueIdx Cert.ReferenceIdeal Cert.ReferenceIdeal.Facts₀ Cert.ReferenceIdeal.Facts

/-! ## Which operand entries a product's entry reads -/

theorem lin_l0 (i : S50000x64.Idx) (q : dot_S50000x64_S64x64_S50000x64_1_0_0_1_n_n.contr.Idx) :
    (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide), dif_pos (show (0 : Fin S50000x64.rank) ∈ dot_S50000x64_S64x64_S50000x64_1_0_0_1_n_n.lhsNonContracting by decide)]
  rfl
theorem lin_l1 (i : S50000x64.Idx) (q : dot_S50000x64_S64x64_S50000x64_1_0_0_1_n_n.contr.Idx) :
    (dot_S50000x64_S64x64_S50000x64_1_0_0_1_n_n.lhsIdx i q 1).val = (q ⟨0, by decide⟩).val :=
  dot_S50000x64_S64x64_S50000x64_1_0_0_1_n_n.lhsIdx_val_of_single rfl i q
theorem lin_r0 (i : S50000x64.Idx) (q : dot_S50000x64_S64x64_S50000x64_1_0_0_1_n_n.contr.Idx) :
    (dot_S50000x64_S64x64_S50000x64_1_0_0_1_n_n.rhsIdx i q 0).val = (q ⟨0, by decide⟩).val :=
  dot_S50000x64_S64x64_S50000x64_1_0_0_1_n_n.rhsIdx_val_of_single rfl i q
theorem lin_r1 (i : S50000x64.Idx) (q : dot_S50000x64_S64x64_S50000x64_1_0_0_1_n_n.contr.Idx) :
    (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide), dif_pos (show (1 : Fin S64x64.rank) ∈ dot_S50000x64_S64x64_S50000x64_1_0_0_1_n_n.rhsNonContracting by decide)]
  rfl

theorem cls_l0 (i : S64x10.Idx) (q : dot_S64x64_S64x10_S64x10_1_0_0_1_n_n.contr.Idx) :
    (dot_S64x64_S64x10_S64x10_1_0_0_1_n_n.lhsIdx i q 0).val = (i 0).val := by
  unfold DotDims.lhsIdx
  rw [dif_neg (show ¬(0 : Fin S64x64.rank) ∈ dot_S64x64_S64x10_S64x10_1_0_0_1_n_n.lhsBatch by decide), dif_pos (show (0 : Fin S64x64.rank) ∈ dot_S64x64_S64x10_S64x10_1_0_0_1_n_n.lhsNonContracting by decide)]
  rfl
theorem cls_l1 (i : S64x10.Idx) (q : dot_S64x64_S64x10_S64x10_1_0_0_1_n_n.contr.Idx) :
    (dot_S64x64_S64x10_S64x10_1_0_0_1_n_n.lhsIdx i q 1).val = (q ⟨0, by decide⟩).val :=
  dot_S64x64_S64x10_S64x10_1_0_0_1_n_n.lhsIdx_val_of_single rfl i q
theorem cls_r0 (i : S64x10.Idx) (q : dot_S64x64_S64x10_S64x10_1_0_0_1_n_n.contr.Idx) :
    (dot_S64x64_S64x10_S64x10_1_0_0_1_n_n.rhsIdx i q 0).val = (q ⟨0, by decide⟩).val :=
  dot_S64x64_S64x10_S64x10_1_0_0_1_n_n.rhsIdx_val_of_single rfl i q
theorem cls_r1 (i : S64x10.Idx) (q : dot_S64x64_S64x10_S64x10_1_0_0_1_n_n.contr.Idx) :
    (dot_S64x64_S64x10_S64x10_1_0_0_1_n_n.rhsIdx i q 1).val = (i 1).val := by
  unfold DotDims.rhsIdx
  rw [dif_neg (show ¬(1 : Fin S64x10.rank) ∈ dot_S64x64_S64x10_S64x10_1_0_0_1_n_n.rhsBatch by decide), dif_pos (show (1 : Fin S64x10.rank) ∈ dot_S64x64_S64x10_S64x10_1_0_0_1_n_n.rhsNonContracting by decide)]
  rfl

/-! ## The reads -/

/-- Node features times a weight matrix, at (p, q). -/
theorem linear_apply (h : FVec Ideal S50000x64 .f32) (w : FVec Ideal S64x64 .f32) (p : Fin 50000) (q : Fin 64) :
    linear (F := Ideal) h w (ix2 p q) = ∑ k : Fin 64, h (ix2 p k) * w (ix2 k q) :=
  Cert.Lib.PlainDot.dotGeneral_apply dot_S50000x64_S64x64_S50000x64_1_0_0_1_n_n rfl rfl lin_l0 lin_l1 lin_r0 lin_r1 none h w p q

/-- Pooled features times the classifier's matrix, at (p, q). -/
theorem classifier_apply (h : FVec Ideal S64x64 .f32) (w : FVec Ideal S64x10 .f32) (p : Fin 64) (q : Fin 10) :
    Host.dotGeneral (F := Ideal) dot_S64x64_S64x10_S64x10_1_0_0_1_n_n none h w (ix2 p q) = ∑ k : Fin 64, h (ix2 p k) * w (ix2 k q) :=
  Cert.Lib.PlainDot.dotGeneral_apply dot_S64x64_S64x10_S64x10_1_0_0_1_n_n rfl rfl cls_l0 cls_l1 cls_r0 cls_r1 none h w p q

/-- The bias rows at (p, q): the bias's entry q. -/
theorem biasRows_apply {F : FTy → Type} [FloatOps F] (x8 : (⟨S10, .f32⟩ : BufTy).Contents (Elt F)) (p : Fin 64) (q : Fin 10) :
    biasRows (F := F) x8 (ix2 p q) = x8 (ix1 q) := by
  unfold biasRows
  rw [Cert.Lib.HostBroadcast.row_matrix_apply]
  exact broadcastInDim_apply _ bcast_S10_S1x10_1 x8 (ix2 (0 : Fin 1) q) (ix1 q) (fun a => match a with
    | ⟨0, _⟩ => by show q.val = if (10 : Nat) = 1 then 0 else q.val; rw [if_neg (by decide)])

end Cert.Spec

end
-- ==== Proof.LibKeepdims.lean ====
/-
  A vector seen as a column, and as a row.

  A vector y of length n can be laid out as a column [n, 1] or as a row [1, n] in two ways: by reading its n entries in
  row-major order under the new shape (a reshape), or by declaring which axis of the new shape the vector's axis goes to
  and repeating it along the other (a broadcast along a named axis; here the other axis has length one, so nothing is
  repeated). Both give the array whose entry (p, 0), resp. (0, q), is y(p), resp. y(q):

    * in a column [n, 1] the entry (p, u) has u = 0 and row-major position p * 1 + 0 = p, which is the position of y(p);
      the broadcast sends the vector's axis to axis 0 and so reads y at the coordinate p;
    * in a row [1, n] the entry (r, q) has r = 0 and row-major position 0 * n + q = q, the position of y(q); the broadcast
      sends the vector's axis to axis 1 and so reads y at the coordinate q.

  When n = 1 the broadcast reads coordinate 0 whatever the index, and the only coordinate below 1 is 0, so the two agree
  in that case as well. The entries may be of any type.
-/
import Idealize.ShloMosaic.Lib.ValueIdx
import Idealize.ShloMosaic.Lib.Pipeline.Value

noncomputable section

namespace Cert.Lib.Keepdims

open Idealize.ShloMosaic Idealize.ShloMosaic.ValueIdx

variable {α : Type}

/-- A vector [n] reshaped to a column [n, 1] reads, at (p, u), the vector at p. -/
theorem shapeCast_column_apply {n : ℕ} (y : (⟨1, ![n]⟩ : Shape).Idx → α) (h : (⟨1, ![n]⟩ : Shape).ShapeCasts ⟨2, ![n, 1]⟩)
    (j : (⟨2, ![n, 1]⟩ : Shape).Idx) : shapeCast (⟨2, ![n, 1]⟩ : Shape) y h j = y (ix1 (j 0)) :=
  shapeCast_apply y h j (ix1 (j 0)) (by
    have hu : (j 1).val = 0 := by have := idx2_lt1 j; omega
    rw [Shape.rowMajor_val_one, Shape.rowMajor_val_two]
    show (j 0).val = (j 0).val * 1 + (j 1).val
    rw [hu, Nat.mul_one, Nat.add_zero])

/-- A vector [n] broadcast along axis 0 of a column [n, 1] reads, at (p, u), the vector at p. -/
theorem broadcastInDim_column_apply {n : ℕ} (y : (⟨1, ![n]⟩ : Shape).Idx → α)
    (hb : (⟨1, ![n]⟩ : Shape).BroadcastsInDim (⟨2, ![n, 1]⟩ : Shape) (![0] : Fin 1 → Fin (⟨2, ![n, 1]⟩ : Shape).rank))
    (j : (⟨2, ![n, 1]⟩ : Shape).Idx) : broadcastInDim (⟨2, ![n, 1]⟩ : Shape) ![0] hb y j = y (ix1 (j 0)) :=
  broadcastInDim_apply _ hb y j (ix1 (j 0)) (fun a => match a with
    | ⟨0, _⟩ => by
      show (j 0).val = if n = 1 then 0 else (j 0).val
      split
      · have := idx2_lt0 j; omega
      · rfl)

/-- The column made from a vector by a reshape is the column made by a broadcast along axis 0. -/
theorem column_eq {n : ℕ} (y : (⟨1, ![n]⟩ : Shape).Idx → α) (h : (⟨1, ![n]⟩ : Shape).ShapeCasts ⟨2, ![n, 1]⟩)
    (hb : (⟨1, ![n]⟩ : Shape).BroadcastsInDim (⟨2, ![n, 1]⟩ : Shape) (![0] : Fin 1 → Fin (⟨2, ![n, 1]⟩ : Shape).rank)) :
    shapeCast (⟨2, ![n, 1]⟩ : Shape) y h = broadcastInDim (⟨2, ![n, 1]⟩ : Shape) ![0] hb y :=
  funext fun j => (shapeCast_column_apply y h j).trans (broadcastInDim_column_apply y hb j).symm

/-- A vector [n] reshaped to a row [1, n] reads, at (r, q), the vector at q. -/
theorem shapeCast_row_apply {n : ℕ} (y : (⟨1, ![n]⟩ : Shape).Idx → α) (h : (⟨1, ![n]⟩ : Shape).ShapeCasts ⟨2, ![1, n]⟩)
    (j : (⟨2, ![1, n]⟩ : Shape).Idx) : shapeCast (⟨2, ![1, n]⟩ : Shape) y h j = y (ix1 (j 1)) :=
  shapeCast_apply y h j (ix1 (j 1)) (by
    have hu : (j 0).val = 0 := by have := idx2_lt0 j; omega
    rw [Shape.rowMajor_val_one, Shape.rowMajor_val_two]
    show (j 1).val = (j 0).val * n + (j 1).val
    rw [hu, Nat.zero_mul, Nat.zero_add])

/-- A vector [n] broadcast along axis 1 of a row [1, n] reads, at (r, q), the vector at q. -/
theorem broadcastInDim_row_apply {n : ℕ} (y : (⟨1, ![n]⟩ : Shape).Idx → α)
    (hb : (⟨1, ![n]⟩ : Shape).BroadcastsInDim (⟨2, ![1, n]⟩ : Shape) (![1] : Fin 1 → Fin (⟨2, ![1, n]⟩ : Shape).rank))
    (j : (⟨2, ![1, n]⟩ : Shape).Idx) : broadcastInDim (⟨2, ![1, n]⟩ : Shape) ![1] hb y j = y (ix1 (j 1)) :=
  broadcastInDim_apply _ hb y j (ix1 (j 1)) (fun a => match a with
    | ⟨0, _⟩ => by
      show (j 1).val = if n = 1 then 0 else (j 1).val
      split
      · have := idx2_lt1 j; omega
      · rfl)

/-- The row made from a vector by a reshape is the row made by a broadcast along axis 1. -/
theorem row_eq {n : ℕ} (y : (⟨1, ![n]⟩ : Shape).Idx → α) (h : (⟨1, ![n]⟩ : Shape).ShapeCasts ⟨2, ![1, n]⟩)
    (hb : (⟨1, ![n]⟩ : Shape).BroadcastsInDim (⟨2, ![1, n]⟩ : Shape) (![1] : Fin 1 → Fin (⟨2, ![1, n]⟩ : Shape).rank)) :
    shapeCast (⟨2, ![1, n]⟩ : Shape) y h = broadcastInDim (⟨2, ![1, n]⟩ : Shape) ![1] hb y :=
  funext fun j => (shapeCast_row_apply y h j).trans (broadcastInDim_row_apply y hb j).symm

end Cert.Lib.Keepdims

end
-- ==== Proof.RegionMatmul.lean ====
/-
  The two tiled matrix products: what the result array of each holds after its region, as a function of the region's
  entry contents, at the ideal instance.

  Each region multiplies a [50000, 64] array by a [64, 64] array in five row blocks of 10000 rows. A grid point t loads
  rows 10000·t … 10000·t + 9999 of the left array and the whole right array, and stores the product of the two blocks
  into the same rows of the result. At the ideal instance the product of two blocks read at (r, q) is the exact sum over
  k < 64 of left (r, k) · right (k, q), so the result array is, row by row, the product of the two arrays.
-/
import proofs.«170577_j31602369364021_1_alg».proof.Proof.Gen.KernelIdeal.Frame
import proofs.«170577_j31602369364021_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionMatmul

open Idealize.ShloMosaic Idealize.ShloMosaic.TcCoe Idealize.ShloMosaic.ValueIdx Idealize.SL.Sem
open Idealize.ShloMosaic.Pipeline (Dat)
open Cert.KernelIdeal Cert.KernelIdeal.Gen

/-- The block offsets written `![0, 0]` are zero on both axes. -/
theorem hz : (![0, 0] : Fin 2 → Nat) = fun _ => 0 := funext fun a => by fin_cases a <;> rfl

/-! ## The contraction's dimension record: left axis 1 against right axis 0, no batch axis -/

theorem dot_lhs0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl
theorem dot_lhs1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem dot_rhs0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem dot_rhs1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The product of a [50000, 64] array and a [64, 64] array, entry by entry: at (p, q) the sum over k < 64 of
    A (p, k) · W (k, q). -/
def rowsTimes (A : S50000x64.Idx → EReal) (W : S64x64.Idx → EReal) : S50000x64.Idx → EReal :=
  fun i => ∑ k : Fin 64, A (ix2 (⟨(i 0).val, idx2_lt0 i⟩ : Fin 50000) k) * W (ix2 k (⟨(i 1).val, idx2_lt1 i⟩ : Fin 64))

/-- The product read at (p, q). -/
theorem rowsTimes_apply (A : S50000x64.Idx → EReal) (W : S64x64.Idx → EReal) (p : Fin 50000) (q : Fin 64) :
    rowsTimes A W (ix2 p q) = ∑ k : Fin 64, A (ix2 p k) * W (ix2 k q) := rfl

/-! ## Region 0

Output window 2's block at grid point t (t < 5) is rows 10000·t … 10000·t + 9999 of the result array; the body stores
the whole block once, the product of the two loaded blocks; input window 0's block at t is the same rows of the left
array and input window 1's block is the whole right array. Every row p lies in the block of the point p / 10000. -/

/-- The body's payload at (p, q): the sum over k < 64 of the left block at (p, k) times the right block at (k, q). A
    change of float format is the identity on extended reals, and the accumulator starts at zero. -/
theorem pay0_apply (x0 : Vec Ideal S10000x64 .f32) (x1 : Vec Ideal S64x64 .f32) (p : Fin 10000) (q : Fin 64) :
    (Gen.k0_pay1 (F := Ideal) x0 x1 : S10000x64.Idx → EReal) (ix2 p q)
      = ∑ k : Fin 64, (x0 (ix2 p k) : EReal) * (x1 (ix2 k q) : EReal) := by
  unfold Gen.k0_pay1
  exact (Ideal.matmul_constant_zero_apply dot_S10000x64_S64x64_S10000x64_1_0_0_1_n_n none
      (truncf .bf16 x0 bitsLt_bf16_f32) (truncf .bf16 x1 bitsLt_bf16_f32) (ix2 p q)).trans
    (Cert.Lib.PlainDot.sum_contr dot_S10000x64_S64x64_S10000x64_1_0_0_1_n_n rfl rfl dot_lhs0 dot_lhs1 dot_rhs0 dot_rhs1 x0 x1 p q)

/-- The same at any index of the block, its coordinates read off as literal-size coordinates. -/
theorem pay0_at (x0 : Vec Ideal S10000x64 .f32) (x1 : Vec Ideal S64x64 .f32) (y : S10000x64.Idx) :
    (Gen.k0_pay1 (F := Ideal) x0 x1 : S10000x64.Idx → EReal) y
      = ∑ k : Fin 64, (x0 (ix2 (⟨(y 0).val, idx2_lt0 y⟩ : Fin 10000) k) : EReal) * (x1 (ix2 k (⟨(y 1).val, idx2_lt1 y⟩ : Fin 64)) : EReal) := by
  obtain ⟨p, q, rfl⟩ : ∃ (p : Fin 10000) (q : Fin 64), y = ix2 p q := ⟨y 0, y 1, eq_ix2 y⟩
  exact pay0_apply x0 x1 p q

/-- What the body leaves in the output's staging buffer is the payload: one store through the whole buffer, of the
    payload of the two whole-buffer loads. -/
theorem out0_eq (x0 : Vec Ideal S10000x64 .f32) (x1 : Vec Ideal S64x64 .f32) :
    Gen.out0_2 (F := Ideal) x0 x1 = Gen.k0_pay1 (F := Ideal) x0 x1 := by
  unfold Gen.out0_2
  rw [View.canon_unit_zero hz]
  simp only [View.ld_unit_zero (S := S10000x64) hz, View.ld_unit_zero (S := S64x64) hz]

/-- The windows' index maps, decided over the five grid points: the left input's and the output's block index is
    (t, 0), the right input's is (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- The left input's block at point t is rows 10000·t … 10000·t + 9999 of its array. -/
theorem iblk0_0_apply (c : Dev nD) (t : Fin cfg0.N) (x : S10000x64.Idx) (i : S50000x64.Idx)
    (h0 : (i 0).val = 10000 * t.val + (x 0).val) (h1 : (i 1).val = (x 1).val) :
    (Gen.iblk0 (F := Ideal) V c 0 t : Vec Ideal S10000x64 .f32) x = (V c main_arg0 : S50000x64.Idx → EReal) i := by
  obtain ⟨e0, e1, -⟩ := idx_facts0 t
  unfold Gen.iblk0
  rw [View.read_apply]
  show V c main_arg0 _ = V c main_arg0 _
  congr 1
  funext a
  apply Fin.ext
  match a with
  | ⟨0, _⟩ => show win0_0.index t (0 : Fin 2) * 10000 + 1 * (x 0).val = (i 0).val; rw [e0, h0]; omega
  | ⟨1, _⟩ => show win0_0.index t (1 : Fin 2) * 64 + 1 * (x 1).val = (i 1).val; rw [e1, h1]; omega

/-- The right input's block at every point is its whole array. -/
theorem iblk0_1_apply (c : Dev nD) (t : Fin cfg0.N) (x : S64x64.Idx) (i : S64x64.Idx)
    (h0 : (i 0).val = (x 0).val) (h1 : (i 1).val = (x 1).val) :
    (Gen.iblk0 (F := Ideal) V c 1 t : Vec Ideal S64x64 .f32) x = (V c main_arg3 : S64x64.Idx → EReal) i := by
  obtain ⟨-, -, e2, e3, -⟩ := idx_facts0 t
  unfold Gen.iblk0
  rw [View.read_apply]
  show V c main_arg3 _ = V c main_arg3 _
  congr 1
  funext a
  apply Fin.ext
  match a with
  | ⟨0, _⟩ => show win0_1.index t (0 : Fin 2) * 64 + 1 * (x 0).val = (i 0).val; rw [e2, h0]; omega
  | ⟨1, _⟩ => show win0_1.index t (1 : Fin 2) * 64 + 1 * (x 1).val = (i 1).val; rw [e3, h1]; omega

/-- What point t writes back is block t of the product of the two arrays as the region finds them. -/
theorem flushed0_eq (c : Dev nD) (t : Fin cfg0.N) :
    (Gen.dat0 (F := Ideal) V c).flushed 2 t
      = ((cfg0.win 2).blk t).view.read (Elt Ideal) (rowsTimes (V c main_arg0) (V c main_arg3)) := by
  show (cfg0.win 2).cut (grid0.coords t) ((Gen.dat0 (F := Ideal) V c).after 2 t) = _
  rw [Gen.after0_2, out0_eq]
  obtain ⟨-, -, -, -, e4, e5⟩ := idx_facts0 t
  funext j
  rw [View.read_apply]
  show (Gen.k0_pay1 (F := Ideal) (Gen.iblk0 (F := Ideal) V c 0 t) (Gen.iblk0 (F := Ideal) V c 1 t) : S10000x64.Idx → EReal) j
    = rowsTimes (V c main_arg0) (V c main_arg3) (((cfg0.win 2).blk t).view.emb j)
  refine (pay0_at _ _ j).trans ?_
  unfold rowsTimes
  refine Finset.sum_congr rfl fun k _ => ?_
  have hj0 : (j 0).val < 10000 := idx2_lt0 (n0 := 10000) (n1 := 64) j
  have hj1 : (j 1).val < 64 := idx2_lt1 (n0 := 10000) (n1 := 64) j
  have E0 : ((((cfg0.win 2).blk t).view.emb j) 0).val = win0_2.index t (0 : Fin 2) * 10000 + 1 * (j 0).val := rfl
  have E1 : ((((cfg0.win 2).blk t).view.emb j) 1).val = win0_2.index t (1 : Fin 2) * 64 + 1 * (j 1).val := rfl
  congr 1
  · refine iblk0_0_apply V c t _ _ ?_ ?_
    · show ((((cfg0.win 2).blk t).view.emb j) 0).val = 10000 * t.val + (j 0).val
      rw [E0, e4]; omega
    · rfl
  · refine iblk0_1_apply V c t _ _ ?_ ?_
    · rfl
    · show ((((cfg0.win 2).blk t).view.emb j) 1).val = (j 1).val
      rw [E1, e5]; omega

/-- An index of the array is in point t's block iff each coordinate is in the block's range on its axis. -/
theorem mem_blk0 (t : Fin cfg0.N) (i : S50000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v30).slice (win0_2.rect t)).set ↔ _
  rw [View.set_slice_whole, Rect.mem_set_unit]
  exact Iff.rfl

/-- Every index of the array is in the block of the point its row divided by 10000 names. -/
theorem cover0 (i : S50000x64.Idx) :
    ∃ t : Fin cfg0.N, (cfg0.win 2).flush t = true ∧ i ∈ ((cfg0.win 2).blk t).view.set := by
  have hN : grid0.N = 5 := Gen.N_0
  have hi0 : (i 0).val < 50000 := idx2_lt0 i
  have hi1 : (i 1).val < 64 := idx2_lt1 i
  have ht : (i 0).val / 10000 < cfg0.N := by show (i 0).val / 10000 < grid0.N; omega
  obtain ⟨-, -, -, -, e4, e5⟩ := idx_facts0 ⟨(i 0).val / 10000, ht⟩
  have e4' : win0_2.index ⟨(i 0).val / 10000, ht⟩ (0 : Fin 2) = (i 0).val / 10000 := e4
  refine ⟨⟨(i 0).val / 10000, ht⟩, Gen.flush0_2 _, ?_⟩
  rw [mem_blk0]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4']; omega
  | ⟨1, _⟩ =>
    show win0_2.index ⟨(i 0).val / 10000, ht⟩ (1 : Fin 2) * 64 ≤ (i 1).val
      ∧ (i 1).val < win0_2.index ⟨(i 0).val / 10000, ht⟩ (1 : Fin 2) * 64 + 64
    rw [e5]; omega

/-- The result array after the region: the product of the two arrays as the region finds them. -/
theorem region0_array (c : Dev nD) :
    (Gen.dat0 (F := Ideal) V c).arrAt 2 cfg0.N = rowsTimes (V c main_arg0) (V c main_arg3) :=
  (Gen.dat0 (F := Ideal) V c).arrAt_eq_of_cover 2 (rowsTimes (V c main_arg0) (V c main_arg3))
    (fun t _ => flushed0_eq V c t) cover0

/-- The result array after the region, entry by entry. -/
theorem region0_apply (c : Dev nD) (p : Fin 50000) (q : Fin 64) :
    (Gen.dat0 (F := Ideal) V c).arrAt 2 cfg0.N (ix2 p q)
      = rowsTimes (V c main_arg0) (V c main_arg3) (ix2 p q) :=
  congrFun (region0_array V c) (ix2 p q)

end

/-! ## Region 1

Output window 2's block at grid point t (t < 5) is rows 10000·t … 10000·t + 9999 of the result array; the body stores
the whole block once, the product of the two loaded blocks; input window 0's block at t is the same rows of the left
array and input window 1's block is the whole right array. Every row p lies in the block of the point p / 10000. -/

/-- The body's payload at (p, q): the sum over k < 64 of the left block at (p, k) times the right block at (k, q). A
    change of float format is the identity on extended reals, and so is a reshape to the same shape, and the accumulator starts at zero. -/
theorem pay1_apply (x0 : Vec Ideal S10000x64 .f32) (x1 : Vec Ideal S64x64 .f32) (p : Fin 10000) (q : Fin 64) :
    (Gen.k1_pay1 (F := Ideal) x0 x1 : S10000x64.Idx → EReal) (ix2 p q)
      = ∑ k : Fin 64, (x0 (ix2 p k) : EReal) * (x1 (ix2 k q) : EReal) := by
  unfold Gen.k1_pay1
  refine (Ideal.matmul_constant_zero_apply dot_S10000x64_S64x64_S10000x64_1_0_0_1_n_n none
      (truncf .bf16 (shapeCast S10000x64 x0 shapeCasts_S10000x64_S10000x64) bitsLt_bf16_f32)
      (truncf .bf16 x1 bitsLt_bf16_f32) (ix2 p q)).trans ?_
  refine (Cert.Lib.PlainDot.sum_contr dot_S10000x64_S64x64_S10000x64_1_0_0_1_n_n rfl rfl dot_lhs0 dot_lhs1 dot_rhs0 dot_rhs1
      (shapeCast S10000x64 x0 shapeCasts_S10000x64_S10000x64) x1 p q).trans ?_
  rw [shapeCast_self]

/-- The same at any index of the block, its coordinates read off as literal-size coordinates. -/
theorem pay1_at (x0 : Vec Ideal S10000x64 .f32) (x1 : Vec Ideal S64x64 .f32) (y : S10000x64.Idx) :
    (Gen.k1_pay1 (F := Ideal) x0 x1 : S10000x64.Idx → EReal) y
      = ∑ k : Fin 64, (x0 (ix2 (⟨(y 0).val, idx2_lt0 y⟩ : Fin 10000) k) : EReal) * (x1 (ix2 k (⟨(y 1).val, idx2_lt1 y⟩ : Fin 64)) : EReal) := by
  obtain ⟨p, q, rfl⟩ : ∃ (p : Fin 10000) (q : Fin 64), y = ix2 p q := ⟨y 0, y 1, eq_ix2 y⟩
  exact pay1_apply x0 x1 p q

/-- What the body leaves in the output's staging buffer is the payload: one store through the whole buffer, of the
    payload of the two whole-buffer loads. -/
theorem out1_eq (x0 : Vec Ideal S10000x64 .f32) (x1 : Vec Ideal S64x64 .f32) :
    Gen.out1_2 (F := Ideal) x0 x1 = Gen.k1_pay1 (F := Ideal) x0 x1 := by
  unfold Gen.out1_2
  rw [View.canon_unit_zero hz]
  simp only [View.ld_unit_zero (S := S10000x64) hz, View.ld_unit_zero (S := S64x64) hz]

/-- The windows' index maps, decided over the five grid points: the left input's and the output's block index is
    (t, 0), the right input's is (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- The left input's block at point t is rows 10000·t … 10000·t + 9999 of its array. -/
theorem iblk1_0_apply (c : Dev nD) (t : Fin cfg1.N) (x : S10000x64.Idx) (i : S50000x64.Idx)
    (h0 : (i 0).val = 10000 * t.val + (x 0).val) (h1 : (i 1).val = (x 1).val) :
    (Gen.iblk1 (F := Ideal) V c 0 t : Vec Ideal S10000x64 .f32) x = (V c main_v47 : S50000x64.Idx → EReal) i := by
  obtain ⟨e0, e1, -⟩ := idx_facts1 t
  unfold Gen.iblk1
  rw [View.read_apply]
  show V c main_v47 _ = V c main_v47 _
  congr 1
  funext a
  apply Fin.ext
  match a with
  | ⟨0, _⟩ => show win1_0.index t (0 : Fin 2) * 10000 + 1 * (x 0).val = (i 0).val; rw [e0, h0]; omega
  | ⟨1, _⟩ => show win1_0.index t (1 : Fin 2) * 64 + 1 * (x 1).val = (i 1).val; rw [e1, h1]; omega

/-- The right input's block at every point is its whole array. -/
theorem iblk1_1_apply (c : Dev nD) (t : Fin cfg1.N) (x : S64x64.Idx) (i : S64x64.Idx)
    (h0 : (i 0).val = (x 0).val) (h1 : (i 1).val = (x 1).val) :
    (Gen.iblk1 (F := Ideal) V c 1 t : Vec Ideal S64x64 .f32) x = (V c main_arg5 : S64x64.Idx → EReal) i := by
  obtain ⟨-, -, e2, e3, -⟩ := idx_facts1 t
  unfold Gen.iblk1
  rw [View.read_apply]
  show V c main_arg5 _ = V c main_arg5 _
  congr 1
  funext a
  apply Fin.ext
  match a with
  | ⟨0, _⟩ => show win1_1.index t (0 : Fin 2) * 64 + 1 * (x 0).val = (i 0).val; rw [e2, h0]; omega
  | ⟨1, _⟩ => show win1_1.index t (1 : Fin 2) * 64 + 1 * (x 1).val = (i 1).val; rw [e3, h1]; omega

/-- What point t writes back is block t of the product of the two arrays as the region finds them. -/
theorem flushed1_eq (c : Dev nD) (t : Fin cfg1.N) :
    (Gen.dat1 (F := Ideal) V c).flushed 2 t
      = ((cfg1.win 2).blk t).view.read (Elt Ideal) (rowsTimes (V c main_v47) (V c main_arg5)) := by
  show (cfg1.win 2).cut (grid1.coords t) ((Gen.dat1 (F := Ideal) V c).after 2 t) = _
  rw [Gen.after1_2, out1_eq]
  obtain ⟨-, -, -, -, e4, e5⟩ := idx_facts1 t
  funext j
  rw [View.read_apply]
  show (Gen.k1_pay1 (F := Ideal) (Gen.iblk1 (F := Ideal) V c 0 t) (Gen.iblk1 (F := Ideal) V c 1 t) : S10000x64.Idx → EReal) j
    = rowsTimes (V c main_v47) (V c main_arg5) (((cfg1.win 2).blk t).view.emb j)
  refine (pay1_at _ _ j).trans ?_
  unfold rowsTimes
  refine Finset.sum_congr rfl fun k _ => ?_
  have hj0 : (j 0).val < 10000 := idx2_lt0 (n0 := 10000) (n1 := 64) j
  have hj1 : (j 1).val < 64 := idx2_lt1 (n0 := 10000) (n1 := 64) j
  have E0 : ((((cfg1.win 2).blk t).view.emb j) 0).val = win1_2.index t (0 : Fin 2) * 10000 + 1 * (j 0).val := rfl
  have E1 : ((((cfg1.win 2).blk t).view.emb j) 1).val = win1_2.index t (1 : Fin 2) * 64 + 1 * (j 1).val := rfl
  congr 1
  · refine iblk1_0_apply V c t _ _ ?_ ?_
    · show ((((cfg1.win 2).blk t).view.emb j) 0).val = 10000 * t.val + (j 0).val
      rw [E0, e4]; omega
    · rfl
  · refine iblk1_1_apply V c t _ _ ?_ ?_
    · rfl
    · show ((((cfg1.win 2).blk t).view.emb j) 1).val = (j 1).val
      rw [E1, e5]; omega

/-- An index of the array is in point t's block iff each coordinate is in the block's range on its axis. -/
theorem mem_blk1 (t : Fin cfg1.N) (i : S50000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v48).slice (win1_2.rect t)).set ↔ _
  rw [View.set_slice_whole, Rect.mem_set_unit]
  exact Iff.rfl

/-- Every index of the array is in the block of the point its row divided by 10000 names. -/
theorem cover1 (i : S50000x64.Idx) :
    ∃ t : Fin cfg1.N, (cfg1.win 2).flush t = true ∧ i ∈ ((cfg1.win 2).blk t).view.set := by
  have hN : grid1.N = 5 := Gen.N_1
  have hi0 : (i 0).val < 50000 := idx2_lt0 i
  have hi1 : (i 1).val < 64 := idx2_lt1 i
  have ht : (i 0).val / 10000 < cfg1.N := by show (i 0).val / 10000 < grid1.N; omega
  obtain ⟨-, -, -, -, e4, e5⟩ := idx_facts1 ⟨(i 0).val / 10000, ht⟩
  have e4' : win1_2.index ⟨(i 0).val / 10000, ht⟩ (0 : Fin 2) = (i 0).val / 10000 := e4
  refine ⟨⟨(i 0).val / 10000, ht⟩, Gen.flush1_2 _, ?_⟩
  rw [mem_blk1]
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    rw [e4']; omega
  | ⟨1, _⟩ =>
    show win1_2.index ⟨(i 0).val / 10000, ht⟩ (1 : Fin 2) * 64 ≤ (i 1).val
      ∧ (i 1).val < win1_2.index ⟨(i 0).val / 10000, ht⟩ (1 : Fin 2) * 64 + 64
    rw [e5]; omega

/-- The result array after the region: the product of the two arrays as the region finds them. -/
theorem region1_array (c : Dev nD) :
    (Gen.dat1 (F := Ideal) V c).arrAt 2 cfg1.N = rowsTimes (V c main_v47) (V c main_arg5) :=
  (Gen.dat1 (F := Ideal) V c).arrAt_eq_of_cover 2 (rowsTimes (V c main_v47) (V c main_arg5))
    (fun t _ => flushed1_eq V c t) cover1

/-- The result array after the region, entry by entry. -/
theorem region1_apply (c : Dev nD) (p : Fin 50000) (q : Fin 64) :
    (Gen.dat1 (F := Ideal) V c).arrAt 2 cfg1.N (ix2 p q)
      = rowsTimes (V c main_v47) (V c main_arg5) (ix2 p q) :=
  congrFun (region1_array V c) (ix2 p q)

end

end Cert.KernelIdeal.RegionMatmul

end
-- ==== Proof.RegionFinal.lean ====
/-
  The last dense product of the network: the pooled features (64 graphs by 64 channels) times the classifier
  weights (64 by 10), plus the bias row (1 by 10) added to every row.

  The region's grid has a single point, and at that point every operand's block is its whole array. The body loads
  the three blocks, forms the product accumulated into zero, adds the bias row broadcast over the 64 rows, and stores
  the 64 by 10 result once. At the ideal instance a change of float format is the identity and the product accumulated
  into zero is the exact sum, so entry (p, q) of what is stored is

      (sum over k < 64 of pooled (p, k) * weights (k, q)) + bias (0, q).

  Below: the operand indices the contraction names; the stored value at an index; the one store as the buffer's
  contents; each block as its whole array; the block written back as the block of one whole-array function; the one
  point's block covers the array; hence the array after the region is that function of the three arrays the region
  finds when it is entered.
-/
import proofs.«170577_j31602369364021_1_alg».proof.Proof.Gen.KernelIdeal.Frame
import proofs.«170577_j31602369364021_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionFinal

open Idealize.ShloMosaic Idealize.ShloMosaic.TcCoe Idealize.ShloMosaic.ValueIdx Idealize.SL.Sem Cert.KernelIdeal Cert.KernelIdeal.Gen
open Idealize.ShloMosaic.Pipeline (Dat)

/-! ## The contraction's operand indices

The product contracts the left operand's axis 1 against the right operand's axis 0 and has no batch axis. At the result
index i = (p, q) and the contraction index k, the left operand is read at (p, k) and the right one at (k, q). -/

/-- The left operand's row is the result's row. -/
theorem lhs_row (i : S64x10.Idx) (k : dot_S64x64_S64x10_S64x10_1_0_0_1_n_n.contr.Idx) :
    (dot_S64x64_S64x10_S64x10_1_0_0_1_n_n.lhsIdx i k 0).val = (i 0).val := by
  unfold DotDims.lhsIdx
  rw [dif_neg (show ¬(0 : Fin S64x64.rank) ∈ dot_S64x64_S64x10_S64x10_1_0_0_1_n_n.lhsBatch by decide),
    dif_pos (show (0 : Fin S64x64.rank) ∈ dot_S64x64_S64x10_S64x10_1_0_0_1_n_n.lhsNonContracting by decide)]
  rfl

/-- The left operand's column is the contraction index. -/
theorem lhs_col (i : S64x10.Idx) (k : dot_S64x64_S64x10_S64x10_1_0_0_1_n_n.contr.Idx) :
    (dot_S64x64_S64x10_S64x10_1_0_0_1_n_n.lhsIdx i k 1).val = (k ⟨0, by decide⟩).val :=
  dot_S64x64_S64x10_S64x10_1_0_0_1_n_n.lhsIdx_val_of_single rfl i k

/-- The right operand's row is the contraction index. -/
theorem rhs_row (i : S64x10.Idx) (k : dot_S64x64_S64x10_S64x10_1_0_0_1_n_n.contr.Idx) :
    (dot_S64x64_S64x10_S64x10_1_0_0_1_n_n.rhsIdx i k 0).val = (k ⟨0, by decide⟩).val :=
  dot_S64x64_S64x10_S64x10_1_0_0_1_n_n.rhsIdx_val_of_single rfl i k

/-- The right operand's column is the result's column. -/
theorem rhs_col (i : S64x10.Idx) (k : dot_S64x64_S64x10_S64x10_1_0_0_1_n_n.contr.Idx) :
    (dot_S64x64_S64x10_S64x10_1_0_0_1_n_n.rhsIdx i k 1).val = (i 1).val := by
  unfold DotDims.rhsIdx
  rw [dif_neg (show ¬(1 : Fin S64x10.rank) ∈ dot_S64x64_S64x10_S64x10_1_0_0_1_n_n.rhsBatch by decide),
    dif_pos (show (1 : Fin S64x10.rank) ∈ dot_S64x64_S64x10_S64x10_1_0_0_1_n_n.rhsNonContracting by decide)]
  rfl

/-! ## The result as one function of the three arrays -/

/-- Entry (p, q) of a0 · a1 plus the row a2: the sum over k < 64 of a0 (p, k) * a1 (k, q), plus a2 (0, q). -/
def affine (a0 : S64x64.Idx → EReal) (a1 : S64x10.Idx → EReal) (a2 : S1x10.Idx → EReal) (p : Fin 64) (q : Fin 10) : EReal :=
  (∑ k : Fin 64, a0 (ix2 p k) * a1 (ix2 k q)) + a2 (ix2 (0 : Fin 1) q)

/-- The 64 by 10 array a0 · a1 + a2 (the row a2 added to every row), index by index. -/
def result (a0 : S64x64.Idx → EReal) (a1 : S64x10.Idx → EReal) (a2 : S1x10.Idx → EReal) : S64x10.Idx → EReal :=
  fun i => affine a0 a1 a2 (i 0) (i 1)

/-- It read at (p, q). -/
theorem result_apply (a0 : S64x64.Idx → EReal) (a1 : S64x10.Idx → EReal) (a2 : S1x10.Idx → EReal) (p : Fin 64) (q : Fin 10) :
    result a0 a1 a2 (ix2 p q) = (∑ k : Fin 64, a0 (ix2 p k) * a1 (ix2 k q)) + a2 (ix2 (0 : Fin 1) q) := rfl

/-! ## The stored value at an index -/

/-- What the body stores, read at (p, q): the casts to the same shape are the identity, so are the two narrowings at
    the ideal instance; the product accumulated into zero is the sum over the contraction index, re-indexed by k < 64
    through the four coordinate facts above; the broadcast row reads the bias's one row at column q; the final
    addition is the extended reals'. -/
theorem payload_apply (x0 : Vec Ideal S64x64 .f32) (x1 : Vec Ideal S64x10 .f32) (x2 : Vec Ideal S1x10 .f32)
    (p : Fin 64) (q : Fin 10) :
    Gen.k2_pay1 (F := Ideal) x0 x1 x2 (ix2 p q) = affine x0 x1 x2 p q := by
  unfold Gen.k2_pay1 affine
  rw [shapeCast_self, shapeCast_self]
  refine (addf_apply _ _ (ix2 p q)).trans ?_
  refine congrArg₂ (fun a b : EReal => a + b) ?_ ?_
  · exact (Ideal.matmul_constant_zero_apply dot_S64x64_S64x10_S64x10_1_0_0_1_n_n none _ _ (ix2 p q)).trans
      (Cert.Lib.PlainDot.sum_contr dot_S64x64_S64x10_S64x10_1_0_0_1_n_n rfl rfl lhs_row lhs_col rhs_row rhs_col x0 x1 p q)
  · exact broadcastTo_1b_ab_apply x2 _ p q

/-- So what the body stores is a0 · a1 + a2 of the three blocks it loaded, as a whole. -/
theorem payload_eq_result (x0 : Vec Ideal S64x64 .f32) (x1 : Vec Ideal S64x10 .f32) (x2 : Vec Ideal S1x10 .f32) :
    Gen.k2_pay1 (F := Ideal) x0 x1 x2 = result x0 x1 x2 := by
  funext j
  obtain ⟨p, q, rfl⟩ : ∃ (p : Fin 64) (q : Fin 10), j = ix2 p q := ⟨j 0, j 1, eq_ix2 j⟩
  exact payload_apply x0 x1 x2 p q

/-! ## The one store leaves the stored value -/

theorem hz : (![0, 0] : Fin 2 → Nat) = fun _ => 0 := funext fun a => by fin_cases a <;> rfl

/-- The body's one store goes through the whole 64 by 10 rectangle at offset (0, 0), and its three loads through the
    whole rectangles of their buffers: the output buffer after the body holds the stored value of the buffers' contents. -/
theorem out_eq (x0 : Vec Ideal S64x64 .f32) (x1 : Vec Ideal S64x10 .f32) (x2 : Vec Ideal S1x10 .f32) :
    Gen.out2_3 (F := Ideal) x0 x1 x2 = Gen.k2_pay1 x0 x1 x2 := by
  unfold Gen.out2_3
  rw [View.canon_unit_zero hz]
  simp only [View.ld_unit_zero (S := S64x64) hz, View.ld_unit_zero (S := S64x10) hz, View.ld_unit_zero (S := S1x10) hz]

/-! ## The blocks at the grid's one point -/

-- the contents of every buffer when the region is entered
variable (V : (c : Dev nD) → (b : Ref sig .tc) → Buf (Elt Ideal) ((c : Thread nD τ).loc b))

/-- Every window's block index is (0, 0) at every point of the grid (there is one point). -/
theorem idx_facts : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- The pooled features' block is the whole array: a block's element sits in the array, on each axis, at block index
    times block size plus its own coordinate, and the block index is 0. -/
theorem iblk_0 (c : Dev nD) (t : Fin cfg2.N) :
    (Gen.iblk2 V c 0 t : Vec Ideal S64x64 .f32) = (V c main_v77 : S64x64.Idx → EReal) := by
  obtain ⟨e0, e1, -⟩ := idx_facts t
  funext y
  show V c main_v77 (((cfg2.win 0).blk t).view.emb y) = V c main_v77 y
  refine congrArg (V c main_v77) (funext fun a => Fin.ext ?_)
  match a with
  | ⟨0, _⟩ => show win2_0.index t (0 : Fin 2) * 64 + 1 * (y 0).val = (y 0).val; rw [e0]; omega
  | ⟨1, _⟩ => show win2_0.index t (1 : Fin 2) * 64 + 1 * (y 1).val = (y 1).val; rw [e1]; omega

/-- The weights' block is the whole array. -/
theorem iblk_1 (c : Dev nD) (t : Fin cfg2.N) :
    (Gen.iblk2 V c 1 t : Vec Ideal S64x10 .f32) = (V c main_arg7 : S64x10.Idx → EReal) := by
  obtain ⟨-, -, e0, e1, -⟩ := idx_facts t
  funext y
  show V c main_arg7 (((cfg2.win 1).blk t).view.emb y) = V c main_arg7 y
  refine congrArg (V c main_arg7) (funext fun a => Fin.ext ?_)
  match a with
  | ⟨0, _⟩ => show win2_1.index t (0 : Fin 2) * 64 + 1 * (y 0).val = (y 0).val; rw [e0]; omega
  | ⟨1, _⟩ => show win2_1.index t (1 : Fin 2) * 10 + 1 * (y 1).val = (y 1).val; rw [e1]; omega

/-- The bias row's block is the whole array. -/
theorem iblk_2 (c : Dev nD) (t : Fin cfg2.N) :
    (Gen.iblk2 V c 2 t : Vec Ideal S1x10 .f32) = (V c main_v78 : S1x10.Idx → EReal) := by
  obtain ⟨-, -, -, -, e0, e1, -⟩ := idx_facts t
  funext y
  show V c main_v78 (((cfg2.win 2).blk t).view.emb y) = V c main_v78 y
  refine congrArg (V c main_v78) (funext fun a => Fin.ext ?_)
  match a with
  | ⟨0, _⟩ => show win2_2.index t (0 : Fin 2) * 1 + 1 * (y 0).val = (y 0).val; rw [e0]; omega
  | ⟨1, _⟩ => show win2_2.index t (1 : Fin 2) * 10 + 1 * (y 1).val = (y 1).val; rw [e1]; omega

/-- What a point writes back is its block of ONE whole-array function, a0 · a1 + a2 of the three arrays as the region
    finds them: the output buffer holds the stored value of the three input blocks, these are the whole arrays, and
    the output's block (block index (0, 0)) reads the function at the same coordinates. -/
theorem flushed_eq (c : Dev nD) (t : Fin cfg2.N) :
    (Gen.dat2 V c).flushed 3 t
      = ((cfg2.win 3).blk t).view.read (Elt Ideal) (result (V c main_v77) (V c main_arg7) (V c main_v78)) := by
  show (cfg2.win 3).cut (grid2.coords t) ((Gen.dat2 V c).after 3 t) = _
  rw [Gen.after2_3, out_eq (Gen.iblk2 V c 0 t) (Gen.iblk2 V c 1 t) (Gen.iblk2 V c 2 t),
    payload_eq_result (Gen.iblk2 V c 0 t) (Gen.iblk2 V c 1 t) (Gen.iblk2 V c 2 t),
    iblk_0 V c t, iblk_1 V c t, iblk_2 V c t]
  obtain ⟨-, -, -, -, -, -, e0, e1⟩ := idx_facts t
  funext y
  show result (V c main_v77) (V c main_arg7) (V c main_v78) ((cfg2.win 3).xinj (grid2.coords t) y)
    = result (V c main_v77) (V c main_arg7) (V c main_v78) (((cfg2.win 3).blk t).view.emb y)
  refine congrArg (result (V c main_v77) (V c main_arg7) (V c main_v78)) (funext fun a => Fin.ext ?_)
  match a with
  | ⟨0, _⟩ => show (y 0).val = win2_3.index t (0 : Fin 2) * 64 + 1 * (y 0).val; rw [e0]; omega
  | ⟨1, _⟩ => show (y 1).val = win2_3.index t (1 : Fin 2) * 10 + 1 * (y 1).val; rw [e1]; omega

/-! ## The one block covers the array -/

/-- An index of the output array is in a point's block iff each coordinate is in the block's range on its axis. -/
theorem mem_blk (t : Fin cfg2.N) (i : S64x10.Idx) :
    i ∈ ((cfg2.win 3).blk t).view.set
      ↔ ∀ a : Fin 2, win2_3.index t a * S64x10.size a ≤ (i a).val ∧ (i a).val < win2_3.index t a * S64x10.size a + S64x10.size a := by
  show i ∈ ((View.whole main_v79).slice (win2_3.rect t)).set ↔ _
  rw [View.set_slice_whole, Rect.mem_set_unit]
  exact Iff.rfl

/-- Every index of the output array is in the block of the grid's one point, which writes back: the block starts at
    (0, 0) and has the array's extents 64 and 10. -/
theorem cover (i : S64x10.Idx) :
    ∃ t : Fin cfg2.N, (cfg2.win 3).flush t = true ∧ i ∈ ((cfg2.win 3).blk t).view.set := by
  have hN : 0 < cfg2.N := by rw [show cfg2.N = 1 from Gen.N_2]; exact Nat.one_pos
  obtain ⟨-, -, -, -, -, -, e0, e1⟩ := idx_facts ⟨0, hN⟩
  refine ⟨⟨0, hN⟩, Gen.flush2_3 _, ?_⟩
  rw [mem_blk]
  intro a
  have h0 : (i 0).val < 64 := idx2_lt0 i
  have h1 : (i 1).val < 10 := idx2_lt1 i
  match a with
  | ⟨0, _⟩ =>
    show win2_3.index ⟨0, hN⟩ (0 : Fin 2) * 64 ≤ (i 0).val ∧ (i 0).val < win2_3.index ⟨0, hN⟩ (0 : Fin 2) * 64 + 64
    rw [e0]; omega
  | ⟨1, _⟩ =>
    show win2_3.index ⟨0, hN⟩ (1 : Fin 2) * 10 ≤ (i 1).val ∧ (i 1).val < win2_3.index ⟨0, hN⟩ (1 : Fin 2) * 10 + 10
    rw [e1]; omega

/-! ## The array after the region -/

/-- The three arrays the region reads, as it finds them, at their literal function types: the pooled features, -/
abbrev pooled (c : Dev nD) : S64x64.Idx → EReal := V c main_v77
/-- the classifier weights, -/
abbrev weights (c : Dev nD) : S64x10.Idx → EReal := V c main_arg7
/-- and the bias row. -/
abbrev bias (c : Dev nD) : S1x10.Idx → EReal := V c main_v78

/-- THE OUTPUT ARRAY after the region is pooled · weights + bias of the arrays the region finds at its entry. -/
theorem final (c : Dev nD) :
    (Gen.dat2 V c).arrAt 3 cfg2.N = result (pooled V c) (weights V c) (bias V c) :=
  (Gen.dat2 V c).arrAt_eq_of_cover 3 (result (V c main_v77) (V c main_arg7) (V c main_v78))
    (fun t _ => flushed_eq V c t) cover

/-- The same read at (p, q): the sum over k < 64 of pooled (p, k) * weights (k, q), plus bias (0, q). -/
theorem region2_apply (c : Dev nD) (p : Fin 64) (q : Fin 10) :
    (Gen.dat2 V c).arrAt 3 cfg2.N (ix2 p q)
      = (∑ k : Fin 64, pooled V c (ix2 p k) * weights V c (ix2 k q)) + bias V c (ix2 (0 : Fin 1) q) :=
  congrFun (final V c) (ix2 p q)

end Cert.KernelIdeal.RegionFinal

end
-- ==== Proof.KernelValue.lean ====
/-
  The idealized kernel's result is the model of its launch arguments.

  At the ideal instance each kernel region leaves the exact matrix product in its output array: a tiled region's array
  at row p and lane q is the sum over the 64 contracted lanes of its left operand at (p, k) times its right operand at
  (k, q), which is the host's dot_general of the two whole arrays; the last region adds the bias's entry q. The left
  operand of each region is what the host stretch before it computed from the product before — the model's stage — so,
  region by region, the result buffer at the last boundary holds the model of the launch arguments.
-/
import proofs.«170577_j31602369364021_1_alg».proof.Proof.HostStages
import proofs.«170577_j31602369364021_1_alg».proof.Proof.SpecReads
import proofs.«170577_j31602369364021_1_alg».proof.Proof.LibKeepdims
import proofs.«170577_j31602369364021_1_alg».proof.Proof.RegionMatmul
import proofs.«170577_j31602369364021_1_alg».proof.Proof.RegionFinal

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal Cert.KernelIdeal.Gen

/-- The rows-times-matrix function of two arrays is the host's dot_general of them. -/
theorem rowsTimes_eq_linear (A : FVec Ideal S50000x64 .f32) (W : FVec Ideal S64x64 .f32) :
    Cert.KernelIdeal.RegionMatmul.rowsTimes A W = Cert.Spec.linear (F := Ideal) A W := by
  funext i
  obtain ⟨p, q, rfl⟩ : ∃ (p : Fin 50000) (q : Fin 64), i = ix2 p q := ⟨i 0, i 1, eq_ix2 i⟩
  rw [Cert.KernelIdeal.RegionMatmul.rowsTimes_apply, Cert.Spec.linear_apply]

/-- Pooled features times the classifier's matrix plus the bias row, the bias given as a one-row matrix made from the
    bias vector, is the model's classifier: its product plus the bias laid over every row. -/
theorem result_eq_classifier (P : FVec Ideal S64x64 .f32) (Wc : FVec Ideal S64x10 .f32) (x8 : FVec Ideal S10 .f32) :
    Cert.KernelIdeal.RegionFinal.result P Wc (shapeCast S1x10 x8 shapeCasts_S10_S1x10)
      = addf (Host.dotGeneral (F := Ideal) Cert.ReferenceIdeal.dot_S64x64_S64x10_S64x10_1_0_0_1_n_n none P Wc)
          (Cert.Spec.biasRows (F := Ideal) x8) := by
  funext i
  obtain ⟨p, q, rfl⟩ : ∃ (p : Fin 64) (q : Fin 10), i = ix2 p q := ⟨i 0, i 1, eq_ix2 i⟩
  rw [Cert.KernelIdeal.RegionFinal.result_apply, addf_apply, Cert.Spec.classifier_apply, Cert.Spec.biasRows_apply,
    Cert.Lib.Keepdims.shapeCast_row_apply]

variable (m : (ℓ : Loc nD τ sig) → Buf (Elt Ideal) ℓ) (ρ : Dev nD → PrngReg) (c : Dev nD)

/-- The first region leaves the node features times the first weight matrix. -/
theorem product1 : W4 m ρ c (Proc.devRef .tc main_v30) = Cert.Spec.linear (F := Ideal) (a0 m c) (a3 m c) := by
  refine (W4_arr m ρ c 2).trans ((Cert.KernelIdeal.RegionMatmul.region0_array (V3 m ρ) c).trans ?_)
  rw [show V3 m ρ c main_arg0 = a0 m c from arg0_3 m ρ c, show V3 m ρ c main_arg3 = a3 m c from arg3_3 m ρ c]
  exact rowsTimes_eq_linear _ _

/-- The second region leaves the first layer's activations times the second weight matrix. -/
theorem product2 : W7 m ρ c (Proc.devRef .tc main_v48)
    = Cert.Spec.product2 (F := Ideal) (a0 m c) (a1 m c) (a3 m c) (a4 m c) (a5 m c) := by
  refine (W7_arr m ρ c 2).trans ((Cert.KernelIdeal.RegionMatmul.region1_array (V6 m ρ) c).trans ?_)
  rw [show V6 m ρ c main_v47 = Cert.Spec.hidden1 (F := Ideal) (a0 m c) (a1 m c) (a3 m c) (a4 m c) from act6 m ρ c (product1 m ρ c),
    show V6 m ρ c main_arg5 = a5 m c from arg5_6 m ρ c]
  exact rowsTimes_eq_linear _ _

/-- The result buffer at the last boundary holds the model of the launch arguments. -/
theorem result : W11 m ρ c (Proc.devRef .tc main_v79)
    = Cert.Spec.model (F := Ideal) (a0 m c) (a1 m c) (a2 m c) (a3 m c) (a4 m c) (a5 m c) (a6 m c) (a7 m c) (a8 m c) := by
  refine (W11_arr m ρ c 3).trans ((Cert.KernelIdeal.RegionFinal.final (V10 m ρ) c).trans ?_)
  rw [show Cert.KernelIdeal.RegionFinal.pooled (V10 m ρ) c
        = Cert.Spec.pooled (F := Ideal) (a0 m c) (a1 m c) (a2 m c) (a3 m c) (a4 m c) (a5 m c) (a6 m c)
        from pooled10 m ρ c (product2 m ρ c),
    show Cert.KernelIdeal.RegionFinal.weights (V10 m ρ) c = a7 m c from arg7_10 m ρ c,
    show Cert.KernelIdeal.RegionFinal.bias (V10 m ρ) c
        = (shapeCast S1x10 (a8 m c) shapeCasts_S10_S1x10 : (⟨S1x10, .f32⟩ : BufTy).Contents (Elt Ideal))
        from bias10 m ρ c]
  exact result_eq_classifier _ _ _

end Cert.Bridge

end
-- ==== Proof.RefValue.lean ====
/-
  The reference's result buffer after its host operations is the model of the argument arrays: the fold of the
  operations, read back one operation at a time, is the specification's term.
-/
import proofs.«170577_j31602369364021_1_alg».proof.Proof.RefOps
import proofs.«170577_j31602369364021_1_alg».proof.Proof.Spec
import proofs.«170577_j31602369364021_1_alg».proof.Proof.FoldRead

noncomputable section

namespace Cert.ReferenceIdeal.RefValue

open Cert.ReferenceIdeal Cert.ReferenceIdeal.Gen Cert.ReferenceIdeal.ValueP Idealize.ShloMosaic Idealize.ShloMosaic.TcCoe Idealize.SL.Sem Idealize.ShloMosaic.StableHlo
open Cert.FoldRead

variable {F : FTy → Type} [FloatOps F]

set_option maxRecDepth 16384 in
set_option maxHeartbeats 50000000 in
/-- The result buffer after the whole line holds the model of the launch contents of the arguments. -/
theorem result_eq (m : (ℓ : Loc nD τ sig) → Buf (Elt F) ℓ) (c : Dev nD) :
    after (ops (F := F)) (launchContents m c) (Proc.devRef .tc main_v96)
      = Cert.Spec.model (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  read_fold
  rfl

end Cert.ReferenceIdeal.RefValue

end
-- ==== Proof.RefRun.lean ====
/-
  The reference's run: every weakly fair execution of its @main terminates without a fault, its result buffer holds the
  model of the launch arguments, and the argument arrays end as launched. The program is a straight line of host
  operations, so every buffer ends at the fold of the operations over the launch contents; the result buffer's fold is the
  model, and no operation writes an argument.
-/
import proofs.«170577_j31602369364021_1_alg».proof.Proof.RefValue

noncomputable section

namespace Cert.ReferenceIdeal.RefRun

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

set_option maxRecDepth 16384 in
set_option maxHeartbeats 50000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v96) = Cert.Spec.model (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v96).trans (Cert.ReferenceIdeal.RefValue.result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.ReferenceIdeal.RefRun

end
-- ==== Proof.lean ====
/-
  A two-layer graph convolution with mean pooling and a linear classifier, its three dense products computed by kernel
  regions (two tiled over row blocks of the node features, one whole), against the same model written with the host's
  matrix products.

  At the ideal instance a change of float format is the identity and a matrix product accumulated into zero is the exact
  sum over the contracted axis, so each kernel region leaves in its output array the host's dot_general of its two
  operands (and the last one adds the bias row by row). The host operations around the regions are the reference's own:
  the edge list with self-loops, the degrees, the edge weights, the gather-scale-scatter of every layer, the rectifier,
  the pooling. Hence both programs end with the model of the argument arrays in their result buffer, and memories that
  agree on the arguments give equal results. The equality uses only that the two sides are the same sums; it needs no
  finiteness of the inputs. The frames are the programs' runs with the results dropped; the idealization rewrote no
  operation, so there is nothing to preserve.
-/
import proofs.«170577_j31602369364021_1_alg».proof.Defs
import proofs.«170577_j31602369364021_1_alg».proof.Proof.Gen.Kernel
import proofs.«170577_j31602369364021_1_alg».proof.Proof.Gen.Kernel.Skeleton
import proofs.«170577_j31602369364021_1_alg».proof.Proof.Gen.Kernel.Launch
import proofs.«170577_j31602369364021_1_alg».proof.Proof.Gen.Kernel.Points
import proofs.«170577_j31602369364021_1_alg».proof.Proof.Gen.Kernel.Frame
import proofs.«170577_j31602369364021_1_alg».proof.Proof.Gen.KernelIdeal
import proofs.«170577_j31602369364021_1_alg».proof.Proof.Gen.KernelIdeal.Skeleton
import proofs.«170577_j31602369364021_1_alg».proof.Proof.Gen.KernelIdeal.Launch
import proofs.«170577_j31602369364021_1_alg».proof.Proof.Gen.KernelIdeal.Points
import proofs.«170577_j31602369364021_1_alg».proof.Proof.Gen.KernelIdeal.Frame
import proofs.«170577_j31602369364021_1_alg».proof.Proof.Gen.ReferenceIdeal
import proofs.«170577_j31602369364021_1_alg».proof.Proof.Gen.Pre_finite_inputs
import proofs.«170577_j31602369364021_1_alg».proof.Proof.NamedRun
import proofs.«170577_j31602369364021_1_alg».proof.Proof.KernelValue
import proofs.«170577_j31602369364021_1_alg».proof.Proof.RefRun
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments both programs end with the model of the arguments in their result buffer. -/
theorem algebraic : Cert.algebraic_KernelIdeal_ReferenceIdeal := by
  intro m ρ m' ρ' _ hagree
  refine ⟨fun c => Cert.KernelIdeal.Gen.W11 m ρ c (Proc.devRef .tc Cert.KernelIdeal.main_v79),
    Cert.KernelIdeal.NamedRun.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  exact (Cert.Bridge.result m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
